-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S50000x128 : Shape := ⟨2, ![50000, 128]⟩
abbrev S64x128 : Shape := ⟨2, ![64, 128]⟩
abbrev S128x128 : Shape := ⟨2, ![128, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S5000x128 : Shape := ⟨2, ![5000, 128]⟩

abbrev nBuf : Space → Nat
  | .hbm => 76
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S50000x128, .f32⟩
  | .hbm, ⟨24, _⟩ => ⟨S50000x128, .f32⟩
  | .hbm, ⟨25, _⟩ => ⟨S_, .f32⟩
  | .hbm, ⟨26, _⟩ => ⟨S64x64, .f32⟩
  | .hbm, ⟨27, _⟩ => ⟨S64x128, .f32⟩
  | .hbm, ⟨28, _⟩ => ⟨S64x128, .f32⟩
  | .hbm, ⟨29, _⟩ => ⟨S128x128, .f32⟩
  | .hbm, ⟨30, _⟩ => ⟨S1x64, .f32⟩
  | .hbm, ⟨31, _⟩ => ⟨S2x64, .f32⟩
  | .hbm, ⟨32, _⟩ => ⟨S128, .f32⟩
  | .hbm, ⟨33, _⟩ => ⟨S1x128, .f32⟩
  | .hbm, ⟨34, _⟩ => ⟨S50000x128, .f32⟩
  | .hbm, ⟨35, _⟩ => ⟨S1x128, .f32⟩
  | .hbm, ⟨36, _⟩ => ⟨S1x128, .f32⟩
  | .hbm, ⟨37, _⟩ => ⟨S1x64, .f32⟩
  | .hbm, ⟨38, _⟩ => ⟨S64, .f32⟩
  | .hbm, ⟨39, _⟩ => ⟨S1x64, .f32⟩
  | .hbm, ⟨40, _⟩ => ⟨S64, .f32⟩
  | .hbm, ⟨41, _⟩ => ⟨S64, .f32⟩
  | .hbm, ⟨42, _⟩ => ⟨S1x64, .f32⟩
  | .hbm, ⟨43, _⟩ => ⟨S64, .f32⟩
  | .hbm, ⟨44, _⟩ => ⟨S1x64, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S1x64, .f32⟩
  | .hbm, ⟨59, _⟩ => ⟨S2x64, .f32⟩
  | .hbm, ⟨60, _⟩ => ⟨S128, .f32⟩
  | .hbm, ⟨61, _⟩ => ⟨S1x128, .f32⟩
  | .hbm, ⟨62, _⟩ => ⟨S1x64, .f32⟩
  | .hbm, ⟨63, _⟩ => ⟨S2x64, .f32⟩
  | .hbm, ⟨64, _⟩ => ⟨S128, .f32⟩
  | .hbm, ⟨65, _⟩ => ⟨S1x128, .f32⟩
  | .hbm, ⟨66, _⟩ => ⟨S1x64, .f32⟩
  | .hbm, ⟨67, _⟩ => ⟨S2x64, .f32⟩
  | .hbm, ⟨68, _⟩ => ⟨S128, .f32⟩
  | .hbm, ⟨69, _⟩ => ⟨S1x128, .f32⟩
  | .hbm, ⟨70, _⟩ => ⟨S1x64, .f32⟩
  | .hbm, ⟨71, _⟩ => ⟨S2x64, .f32⟩
  | .hbm, ⟨72, _⟩ => ⟨S128, .f32⟩
  | .hbm, ⟨73, _⟩ => ⟨S1x128, .f32⟩
  | .hbm, ⟨74, _⟩ => ⟨S50000x128, .f32⟩
  | .hbm, ⟨75, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S100000x64_S50000x128 : S100000x64.ShapeCasts S50000x128
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  shapeCasts_S64_S1x64 : S64.ShapeCasts S1x64
  bcast_S1x64_S2x64_0_1 : S1x64.BroadcastsInDim S2x64 (![0, 1] : Fin 2 → Fin S2x64.rank)
  shapeCasts_S2x64_S128 : S2x64.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  slices_S1x128_S1x64_0_0 : S1x128.Slices ![0, 0] S1x64
  shapeCasts_S1x64_S64 : S1x64.ShapeCasts S64
  slices_S1x128_S1x64_0_64 : S1x128.Slices ![0, 64] S1x64
  bcast_S_S64 : S_.BroadcastsInDim S64 (![] : Fin 0 → Fin S64.rank)
  shapeCasts_S50000x128_S100000x64 : S50000x128.ShapeCasts S100000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v24_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 75
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x64, .f32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S_, .i32⟩
  | .hbm, ⟨34, _⟩ => ⟨S_, .f32⟩
  | .hbm, ⟨35, _⟩ => ⟨S64, .f32⟩
  | .hbm, ⟨36, _⟩ => ⟨S1x64, .f32⟩
  | .hbm, ⟨37, _⟩ => ⟨S_, .f32⟩
  | .hbm, ⟨38, _⟩ => ⟨S1x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_cst_3 : Ref sig .tc := ⟨.hbm, 50, rfl⟩
abbrev main_call0_v12 : Ref sig .tc := ⟨.hbm, 51, rfl⟩
abbrev main_call0_cst_4 : Ref sig .tc := ⟨.hbm, 52, rfl⟩
abbrev main_call0_call0_v0 : Ref sig .tc := ⟨.hbm, 53, rfl⟩
abbrev main_call0_call0_v1 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_4 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_call1_cst : Ref sig .tc := ⟨.hbm, 72, rfl⟩
abbrev main_call1_v0 : Ref sig .tc := ⟨.hbm, 73, rfl⟩
abbrev main_v38 : Ref sig .tc := ⟨.hbm, 74, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.RunNamed.lean ====
/-
  The idealized kernel program's run with its RESULT array named: every weakly fair execution of @main
  terminates, nothing faulting, with the result array `%60` at the contents the last boundary of the
  segment chain gives it (`Gen.W5`: the launch memory folded through the three stretches of host
  operations and the two kernel regions) and the six argument arrays as launched.
-/
import proofs.«174260_j43593918054564_2_alg».proof.Proof.Gen.KernelIdeal.Frame

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array read off the last thread state as the six arguments are. -/
theorem run_named : θ_run defs (onTc (τ := τ) (main (F := F))) ⟨m, fun _ => 0, ρ⟩ (fun r => ∀ c : Dev nD,
      r.2.mem ((c.tc : Thread nD τ).loc main_v60) = W5 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v60 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.KVal

end
-- ==== Proof.Pieces.lean ====
/-
  What one run of the first kernel's body leaves in its three output blocks, as values of the blocks it
  loads. At the first grid point the two running-sum rows are reset to zero before the block's column
  sums are added; at every later point they start from what the point before left:
    rows block      =  (x + a) · W₂ + b₂                      (`k0_pay3`)
    column sums     =  previous (or zero) + ∑ rows            (`k0_pay4`)
    sums of squares =  previous (or zero) + ∑ rows²           (`k0_pay5`).
-/
import proofs.«174260_j43593918054564_2_alg».proof.Proof.Gen.KernelIdeal.Frame
import Idealize.ShloMosaic.Lib.Pipeline.Value
import Idealize.ShloMosaic.Lib.Tactic

set_option maxRecDepth 16384

noncomputable section

namespace Cert.KernelIdeal.KVal

open Cert.KernelIdeal Cert.KernelIdeal.Gen
open Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- First point: the rows block is the linear layer of the loaded blocks. -/
theorem outA4 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond0_0 i) (x0 : Vec F S5000x128 .f32) (x1 : Vec F S5000x128 .f32) (x2 : Vec F S128x128 .f32) (x3 : Vec F S1x128 .f32) :
    out0_A_4 c i a1 h1 a2 h2 a3 h3 a4 h4 a5 h5 a6 h6 a7 h7 hc x0 x1 x2 x3 = k0_pay3 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- First point: the column sums start from the zero row just stored. -/
theorem outA5 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond0_0 i) (x0 : Vec F S5000x128 .f32) (x1 : Vec F S5000x128 .f32) (x2 : Vec F S128x128 .f32) (x3 : Vec F S1x128 .f32) :
    out0_A_5 c i a1 h1 a2 h2 a3 h3 a4 h4 a5 h5 a6 h6 a7 h7 hc x0 x1 x2 x3 = k0_pay4 x0 x1 x2 x3 (k0_pay1 (F := F)) := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- First point: the sums of squares start from the zero row just stored. -/
theorem outA6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : cond0_0 i) (x0 : Vec F S5000x128 .f32) (x1 : Vec F S5000x128 .f32) (x2 : Vec F S128x128 .f32) (x3 : Vec F S1x128 .f32) :
    out0_A_6 c i a1 h1 a2 h2 a3 h3 a4 h4 a5 h5 a6 h6 a7 h7 hc x0 x1 x2 x3 = k0_pay5 x0 x1 x2 x3 (k0_pay2 (F := F)) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- Later points: the rows block again. -/
theorem outB4 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond0_0 i) (x0 : Vec F S5000x128 .f32) (x1 : Vec F S5000x128 .f32) (x2 : Vec F S128x128 .f32) (x3 : Vec F S1x128 .f32) (xo5 xo6 : Vec F S1x128 .f32) :
    out0_B_4 c i a1 h1 a2 h2 a3 h3 a4 h4 a5 h5 a6 h6 a7 h7 hc x0 x1 x2 x3 xo5 xo6 = k0_pay3 x0 x1 x2 x3 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- Later points: the column sums continue from the row the point before left. -/
theorem outB5 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond0_0 i) (x0 : Vec F S5000x128 .f32) (x1 : Vec F S5000x128 .f32) (x2 : Vec F S128x128 .f32) (x3 : Vec F S1x128 .f32) (xo5 xo6 : Vec F S1x128 .f32) :
    out0_B_5 c i a1 h1 a2 h2 a3 h3 a4 h4 a5 h5 a6 h6 a7 h7 hc x0 x1 x2 x3 xo5 xo6 = k0_pay4 x0 x1 x2 x3 xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

/-- Later points: the sums of squares continue likewise. -/
theorem outB6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S5000x128 .f32) (h5 : a5.IsWhole) (a6 : Memref sig .tc .vmem S1x128 .f32) (h6 : a6.IsWhole) (a7 : Memref sig .tc .vmem S1x128 .f32) (h7 : a7.IsWhole) (hc : ¬cond0_0 i) (x0 : Vec F S5000x128 .f32) (x1 : Vec F S5000x128 .f32) (x2 : Vec F S128x128 .f32) (x3 : Vec F S1x128 .f32) (xo5 xo6 : Vec F S1x128 .f32) :
    out0_B_6 c i a1 h1 a2 h2 a3 h3 a4 h4 a5 h5 a6 h6 a7 h7 hc x0 x1 x2 x3 xo5 xo6 = k0_pay5 x0 x1 x2 x3 xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  sl_unfold_words
  rw [View.canon_unit_zero hz]
  simp only [View.readAt_eq_ld, h1.read_unread, h2.read_unread, h3.read_unread, h4.read_unread, h6.read_unread, h7.read_unread, View.ld_unit_zero (S := S5000x128) hz, View.ld_unit_zero (S := S128x128) hz, View.ld_unit_zero (S := S1x128) hz]

end Cert.KernelIdeal.KVal

end
-- ==== Proof.Payload.lean ====
/-
  The two kernels' arithmetic read at an index, over the extended reals. With D the 128-wide lane
  dimension, for a block of 5000 rows:
    rows (p, c)     = (∑ k : Fin 128, (x (p, k) + a (p, k)) · W₂ (k, c)) + b₂ (0, c)
    sums (0, c)     = s (0, c) + ∑ p : Fin 5000, rows (p, c)
    squares (0, c)  = q (0, c) + ∑ p : Fin 5000, rows (p, c) · rows (p, c)
  and the second kernel's
    out (p, c) = max (γ₂ (0,c) · ((h (p,c) − μ₂ (0,c)) · rsqrt (v₂ (0,c) + ε)) + β₂ (0,c)) 0.
-/
import proofs.«174260_j43593918054564_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KVal

open Cert.KernelIdeal Cert.KernelIdeal.Gen
open Idealize.ShloMosaic Idealize.ShloMosaic.ValueIdx

/-- The matrix product's dimension record, abbreviated. -/
abbrev DD := dot_S5000x128_S128x128_S5000x128_1_0_0_1_n_n

/-- A block's rows through the linear layer. -/
theorem pay3_apply (x0 x1 : Vec Ideal S5000x128 .f32) (x2 : Vec Ideal S128x128 .f32) (x3 : Vec Ideal S1x128 .f32)
    (p : Fin 5000) (c : Fin 128) :
    k0_pay3 x0 x1 x2 x3 (ix2 p c)
      = (∑ k : Fin 128, (x0 (ix2 p k) + x1 (ix2 p k)) * x2 (ix2 k c)) + x3 (ix2 (0 : Fin 1) c) := by
  unfold k0_pay3
  rw [addf_apply]
  simp only [matmul]
  rw [Ideal.matmul_constant_zero_apply, broadcastTo_1b_ab_apply,
    ← Equiv.sum_comp (contrEquiv1 DD 128 rfl rfl).symm]
  simp only [shapeCast_self]
  refine congrArg (· + x3 (ix2 (0 : Fin 1) c)) (Finset.sum_congr rfl fun k _ => ?_)
  have ck := contrEquiv1_symm_val DD 128 rfl rfl k
  have l2 : DD.lhsIdx (ix2 p c) ((contrEquiv1 DD 128 rfl rfl).symm k) = ix2 p k := by
    funext ax; apply Fin.ext
    match ax with
    | ⟨0, _⟩ => simp [DotDims.lhsIdx, DD, dot_S5000x128_S128x128_S5000x128_1_0_0_1_n_n]; rfl
    | ⟨1, _⟩ => simp [DotDims.lhsIdx, DD, dot_S5000x128_S128x128_S5000x128_1_0_0_1_n_n]; exact ck
  have r2 : DD.rhsIdx (ix2 p c) ((contrEquiv1 DD 128 rfl rfl).symm k) = ix2 k c := by
    funext ax; apply Fin.ext
    match ax with
    | ⟨0, _⟩ => simp [DotDims.rhsIdx, DD, dot_S5000x128_S128x128_S5000x128_1_0_0_1_n_n]; exact ck
    | ⟨1, _⟩ => simp [DotDims.rhsIdx, DD, dot_S5000x128_S128x128_S5000x128_1_0_0_1_n_n]; rfl
  rw [l2, r2, truncf_apply, truncf_apply, addf_apply]

/-- A lane sum of a 5000-row block, read at a lane, is the sum over the rows. -/
theorem laneSum_apply (src : FVec Ideal S5000x128 .f32) (hφ : FKind.Formats .f32)
    (hacc : (0x00000000#32 : BitVec 32) = 0x00000000#32) (c : Fin 128) :
    multiReduction .add [0] S128 src 0x00000000#32 reduces_S5000x128_S128 hφ hacc (ix1 c)
      = ∑ p : Fin 5000, src (ix2 p c) := by
  refine (Ideal.multiReduction_add_single src 0x00000000#32 reduces_S5000x128_S128 hφ hacc (ix1 c)).trans ?_
  refine Finset.sum_congr rfl fun p _ => congrArg src ?_
  funext ax; apply Fin.ext
  match ax with
  | ⟨0, _⟩ => rfl
  | ⟨1, _⟩ => rfl

/-- The running column sums after a block. -/
theorem pay4_apply (x0 x1 : Vec Ideal S5000x128 .f32) (x2 : Vec Ideal S128x128 .f32) (x3 s : Vec Ideal S1x128 .f32)
    (c : Fin 128) :
    k0_pay4 x0 x1 x2 x3 s (ix2 (0 : Fin 1) c)
      = s (ix2 (0 : Fin 1) c) + ∑ p : Fin 5000, k0_pay3 x0 x1 x2 x3 (ix2 p c) := by
  unfold k0_pay4
  simp only [shapeCast_self]
  rw [addf_apply, shapeCast_a_1a_apply, laneSum_apply]

/-- The running column sums of squares after a block. -/
theorem pay5_apply (x0 x1 : Vec Ideal S5000x128 .f32) (x2 : Vec Ideal S128x128 .f32) (x3 q : Vec Ideal S1x128 .f32)
    (c : Fin 128) :
    k0_pay5 x0 x1 x2 x3 q (ix2 (0 : Fin 1) c)
      = q (ix2 (0 : Fin 1) c) + ∑ p : Fin 5000, k0_pay3 x0 x1 x2 x3 (ix2 p c) * k0_pay3 x0 x1 x2 x3 (ix2 p c) := by
  unfold k0_pay5
  simp only [shapeCast_self]
  rw [addf_apply, shapeCast_a_1a_apply, laneSum_apply]
  rfl

/-- The zero rows the first point stores. -/
theorem pay1_apply (i : S1x128.Idx) : k0_pay1 (F := Ideal) i = 0 := by
  unfold k0_pay1
  show Ideal.ofBits .f32 0x00000000#32 = 0
  exact Ideal.ofBits_zero_f32
theorem pay2_apply (i : S1x128.Idx) : k0_pay2 (F := Ideal) i = 0 := by
  unfold k0_pay2
  show Ideal.ofBits .f32 0x00000000#32 = 0
  exact Ideal.ofBits_zero_f32

/-- The second kernel: normalise, scale, shift, clamp. -/
theorem pay1k1_apply (v : Vec Ideal S1x128 .f32) (h : Vec Ideal S5000x128 .f32) (mu g be : Vec Ideal S1x128 .f32)
    (p : Fin 5000) (c : Fin 128) :
    k1_pay1 v h mu g be (ix2 p c)
      = max (g (ix2 (0 : Fin 1) c) * ((h (ix2 p c) - mu (ix2 (0 : Fin 1) c))
          * Ideal.rsqrt (v (ix2 (0 : Fin 1) c) + Ideal.ofBits .f32 0x3727C5AC#32)) + be (ix2 (0 : Fin 1) c)) 0 := by
  unfold k1_pay1
  simp only [shapeCast_self]
  rw [maximumf_apply, addf_apply, mulf_apply, mulf_apply, subf_apply, broadcastTo_1b_ab_apply, broadcastTo_1b_ab_apply,
    broadcastTo_1b_ab_apply, broadcastTo_1b_ab_apply]
  show max (_ * (_ * Ideal.rsqrt (v (ix2 (0 : Fin 1) c) + Ideal.ofBits .f32 0x3727C5AC#32)) + _) (Ideal.ofBits .f32 0x00000000#32) = _
  rw [Ideal.ofBits_zero_f32]

end Cert.KernelIdeal.KVal

end
-- ==== Proof.LibSums.lean ====
/-
  Re-indexing of finite sums: a sum over n·m consecutive positions as a double sum over n blocks of m, and its
  instances for the row pairs (100000 = 50000·2), the row blocks (50000 = 10·5000) and a block-diagonal
  contraction (128 = 2·64).
-/
import Mathlib

open scoped BigOperators

namespace Cert.Repack

/-- Position b of block a, among n blocks of m, lies below n·m. -/
theorem block_lt {n m N a b : ℕ} (h : n * m = N) (ha : a < n) (hb : b < m) : m * a + b < N := by
  have h1 : m * (a + 1) ≤ m * n := Nat.mul_le_mul_left m ha
  have h2 : m * (a + 1) = m * a + m := Nat.mul_succ m a
  have h3 : m * n = N := by rw [Nat.mul_comm]; exact h
  omega

/-- BLOCKS. A sum over N = n·m positions is the sum over the n blocks of the sums over each block's m positions,
    position b of block a being m·a + b. -/
theorem sum_blocks {M : Type*} [AddCommMonoid M] {N : ℕ} (n m : ℕ) (h : n * m = N) (g : Fin N → M) :
    ∑ k : Fin N, g k = ∑ a : Fin n, ∑ b : Fin m, g ⟨m * a.val + b.val, block_lt h a.isLt b.isLt⟩ := by
  subst h
  rw [← Equiv.sum_comp finProdFinEquiv g, Fintype.sum_prod_type]
  refine Finset.sum_congr rfl fun a _ => Finset.sum_congr rfl fun b _ => ?_
  refine congrArg g (Fin.ext ?_)
  show b.val + m * a.val = m * a.val + b.val
  omega

/-- ROW PAIRS. A sum over 100000 rows is the sum over the even rows plus the sum over the odd rows. -/
theorem sum_rows_even_odd {M : Type*} [AddCommMonoid M] (g : Fin 100000 → M) :
    ∑ r : Fin 100000, g r
      = ∑ i : Fin 50000, g ⟨2 * i.val, by have := i.isLt; omega⟩
        + ∑ i : Fin 50000, g ⟨2 * i.val + 1, by have := i.isLt; omega⟩ := by
  rw [sum_blocks 50000 2 (by norm_num) g, ← Finset.sum_add_distrib]
  refine Finset.sum_congr rfl fun i _ => ?_
  rw [Fin.sum_univ_two]
  rfl

/-- ROW BLOCKS. A sum over 50000 rows is the sum over 10 blocks of the sums over each block's 5000 rows. -/
theorem sum_row_blocks {M : Type*} [AddCommMonoid M] (g : Fin 50000 → M) :
    ∑ i : Fin 50000, g i
      = ∑ t : Fin 10, ∑ r : Fin 5000, g ⟨5000 * t.val + r.val, by have := t.isLt; have := r.isLt; omega⟩ := by
  rw [sum_blocks 10 5000 (by norm_num) g]

/-- BLOCK-DIAGONAL CONTRACTION. Against a column that is w on the e-th block of 64 positions and zero on the other,
    a contraction over 128 positions is the contraction over that block's 64 positions (each term of the other
    block is a product with zero). -/
theorem sum_block_diag (f : Fin 128 → EReal) (w : Fin 64 → EReal) (e : Fin 2) :
    ∑ k : Fin 128, f k * (if k.val / 64 = e.val then w ⟨k.val % 64, Nat.mod_lt _ (by norm_num)⟩ else 0)
      = ∑ k : Fin 64, f ⟨64 * e.val + k.val, by have := e.isLt; have := k.isLt; omega⟩ * w k := by
  rw [sum_blocks 2 64 (by norm_num)]
  have hblock : ∀ a : Fin 2,
      (∑ b : Fin 64, f ⟨64 * a.val + b.val, block_lt (by norm_num) a.isLt b.isLt⟩
          * (if (64 * a.val + b.val) / 64 = e.val
              then w ⟨(64 * a.val + b.val) % 64, Nat.mod_lt _ (by norm_num)⟩ else 0))
        = if a = e then ∑ k : Fin 64, f ⟨64 * e.val + k.val, by have := e.isLt; have := k.isLt; omega⟩ * w k else 0 := by
    intro a
    by_cases hae : a = e
    · subst hae
      rw [if_pos rfl]
      refine Finset.sum_congr rfl fun b _ => ?_
      have hb := b.isLt
      rw [if_pos (by omega)]
      congr 2
      exact Fin.ext (by show (64 * a.val + b.val) % 64 = b.val; omega)
    · rw [if_neg hae]
      refine Finset.sum_eq_zero fun b _ => ?_
      have hb := b.isLt
      have hne : ¬ (64 * a.val + b.val) / 64 = e.val := by
        intro hc
        exact hae (Fin.ext (by omega))
      rw [if_neg hne, mul_zero]
  exact (Finset.sum_congr rfl fun a _ => hblock a).trans (by rw [Finset.sum_ite_eq' Finset.univ e]; simp)

end Cert.Repack
-- ==== Proof.BlockSums.lean ====
/-
  The ten-block running sum: a column accumulated block by block — zero, plus the first 5000 rows'
  sum, plus the next 5000 rows' sum, … — is, after the tenth block, the sum over all 50000 rows.
  Addition on the extended reals is commutative and associative, so no finiteness is needed.
-/
import proofs.«174260_j43593918054564_2_alg».proof.Proof.LibSums

noncomputable section

namespace Cert.Repack

/-- The running sum after block `n` (blocks counted from 0), started from zero at block 0. -/
def blockSums (g : Fin 50000 → EReal) : (n : ℕ) → n < 10 → EReal
  | 0, _ => 0 + ∑ p : Fin 5000, g ⟨5000 * 0 + p.val, by have := p.isLt; omega⟩
  | n + 1, h => blockSums g n (by omega) + ∑ p : Fin 5000, g ⟨5000 * (n + 1) + p.val, by have := p.isLt; omega⟩

/-- After block `n` it is the sum over the blocks so far. -/
theorem blockSums_eq (g : Fin 50000 → EReal) : ∀ (n : ℕ) (h : n < 10),
    blockSums g n h = ∑ t : Fin (n + 1), ∑ p : Fin 5000,
      g ⟨5000 * t.val + p.val, by have := p.isLt; have := t.isLt; omega⟩
  | 0, _ => by
    rw [blockSums, zero_add, Fin.sum_univ_one]
    rfl
  | n + 1, h => by
    rw [blockSums, blockSums_eq g n (by omega)]
    conv_rhs => rw [Fin.sum_univ_castSucc]
    rfl

/-- After the last block it is the whole column's sum. -/
theorem blockSums_last (g : Fin 50000 → EReal) : blockSums g 9 (by norm_num) = ∑ i : Fin 50000, g i := by
  rw [blockSums_eq, sum_row_blocks]

end Cert.Repack

end
-- ==== Proof.Region0.lean ====
/-
  The first kernel region, read as values. With X, A the repacked features and neighbour sums
  ([50000,128]), W₂ the 128×128 matrix and b₂ the tiled bias as the region finds them,
    rows i c = (∑ k, (X (i,k) + A (i,k)) · W₂ (k,c)) + b₂ (0,c).
  Grid point t (of ten) handles rows 5000·t … 5000·t+4999: it writes that block of `rows` and adds the
  block's column sums (and sums of squares) to two running rows that are reset at the first point and
  written back after the last. So the three result arrays end holding `rows`, the column sums of
  `rows` over all 50000 rows, and the column sums of its squares.
-/
import proofs.«174260_j43593918054564_2_alg».proof.Proof.Pieces
import proofs.«174260_j43593918054564_2_alg».proof.Proof.Payload
import proofs.«174260_j43593918054564_2_alg».proof.Proof.BlockSums

set_option maxRecDepth 16384

noncomputable section

namespace Cert.KernelIdeal.KVal

open Cert.KernelIdeal Cert.KernelIdeal.Gen Cert.Repack
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The region's four input arrays as it finds them: packed features, packed neighbour sums, the
    128×128 matrix, the tiled bias row. -/
abbrev inX (c : Dev nD) : S50000x128.Idx → EReal := V c main_v14
abbrev inA (c : Dev nD) : S50000x128.Idx → EReal := V c main_v15
abbrev inW (c : Dev nD) : S128x128.Idx → EReal := V c main_v19
abbrev inB (c : Dev nD) : S1x128.Idx → EReal := V c main_v23

/-- A repacked row through the linear layer. -/
def rows (c : Dev nD) (i : Fin 50000) (col : Fin 128) : EReal :=
  (∑ k : Fin 128, (inX V c (ix2 i k) + inA V c (ix2 i k)) * inW V c (ix2 k col)) + inB V c (ix2 (0 : Fin 1) col)

/-- Where each window's block sits at a grid point: the row blocks move with the point, the rest stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem row_lt (t : Fin cfg0.N) (p : Fin 5000) : 5000 * t.val + p.val < 50000 := by
  have := t.isLt; have hN : cfg0.N = 10 := N_0; have := p.isLt; omega

/-- The features' block at point `t` is rows 5000·t … of the array. -/
theorem blk0_apply (c : Dev nD) (t : Fin cfg0.N) (p : Fin 5000) (k : Fin 128) :
    (iblk0 V c 0 t : S5000x128.Idx → EReal) (ix2 p k)
      = inX V c (ix2 ⟨5000 * t.val + p.val, row_lt t p⟩ k) := by
  unfold iblk0
  rw [View.read_apply]
  show inX V c (((cfg0.win 0).blk t).view.emb (ix2 p k)) = _
  refine congrArg (inX V c) ?_
  funext a; apply Fin.ext
  obtain ⟨e0, e1, -⟩ := idx_facts0 t
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The neighbour sums' block likewise. -/
theorem blk1_apply (c : Dev nD) (t : Fin cfg0.N) (p : Fin 5000) (k : Fin 128) :
    (iblk0 V c 1 t : S5000x128.Idx → EReal) (ix2 p k)
      = inA V c (ix2 ⟨5000 * t.val + p.val, row_lt t p⟩ k) := by
  unfold iblk0
  rw [View.read_apply]
  show inA V c (((cfg0.win 1).blk t).view.emb (ix2 p k)) = _
  refine congrArg (inA V c) ?_
  funext a; apply Fin.ext
  obtain ⟨-, -, e0, e1, -⟩ := idx_facts0 t
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

/-- The matrix's one block is the matrix. -/
theorem blk2_apply (c : Dev nD) (t : Fin cfg0.N) (k col : Fin 128) :
    (iblk0 V c 2 t : S128x128.Idx → EReal) (ix2 k col) = inW V c (ix2 k col) := by
  unfold iblk0
  rw [View.read_apply]
  show inW V c (((cfg0.win 2).blk t).view.emb (ix2 k col)) = _
  refine congrArg (inW V c) ?_
  funext a; apply Fin.ext
  obtain ⟨-, -, -, -, e0, e1, -⟩ := idx_facts0 t
  match a with
  | ⟨0, _⟩ => show win0_2.index t (0 : Fin 2) * 128 + 1 * k.val = k.val; rw [e0]; omega
  | ⟨1, _⟩ => show win0_2.index t (1 : Fin 2) * 128 + 1 * col.val = col.val; rw [e1]; omega

/-- The bias row's one block is the row. -/
theorem blk3_apply (c : Dev nD) (t : Fin cfg0.N) (col : Fin 128) :
    (iblk0 V c 3 t : S1x128.Idx → EReal) (ix2 (0 : Fin 1) col) = inB V c (ix2 (0 : Fin 1) col) := by
  unfold iblk0
  rw [View.read_apply]
  show inB V c (((cfg0.win 3).blk t).view.emb (ix2 (0 : Fin 1) col)) = _
  refine congrArg (inB V c) ?_
  funext a; apply Fin.ext
  obtain ⟨-, -, -, -, -, -, e0, e1, -⟩ := idx_facts0 t
  match a with
  | ⟨0, _⟩ => show win0_3.index t (0 : Fin 2) * 1 + 1 * 0 = 0; rw [e0]
  | ⟨1, _⟩ => show win0_3.index t (1 : Fin 2) * 128 + 1 * col.val = col.val; rw [e1]; omega

/-- The body's rows block at point `t` is rows 5000·t … of `rows`. -/
theorem pay3_blocks (c : Dev nD) (t : Fin cfg0.N) (p : Fin 5000) (col : Fin 128) :
    k0_pay3 (F := Ideal) (iblk0 V c 0 t) (iblk0 V c 1 t) (iblk0 V c 2 t) (iblk0 V c 3 t) (ix2 p col) = rows V c ⟨5000 * t.val + p.val, row_lt t p⟩ col := by
  refine (pay3_apply (iblk0 V c 0 t) (iblk0 V c 1 t) (iblk0 V c 2 t) (iblk0 V c 3 t) p col).trans ?_
  unfold rows
  rw [blk3_apply]
  refine congrArg (· + inB V c (ix2 (0 : Fin 1) col)) (Finset.sum_congr rfl fun k _ => ?_)
  rw [blk0_apply, blk1_apply, blk2_apply]

/-- What the rows output holds after point `t`: the body's rows block, whichever case the point is. -/
theorem out4_eq (c : Dev nD) (t : Fin cfg0.N) :
    (outsAt0 V c t.val t.isLt).1 = k0_pay3 (F := Ideal) (iblk0 V c 0 t) (iblk0 V c 1 t) (iblk0 V c 2 t) (iblk0 V c 3 t) := by
  by_cases h0 : t.val % 10 = 0
  · rw [outsAt0_A V c t h0]
    dsimp only
    exact outA4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)
  · rw [outsAt0_B V c t h0]
    dsimp only
    exact outB4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) _ _

/-- The running column sums and sums of squares after point `n`, lane by lane. -/
theorem sums_eq (c : Dev nD) : ∀ (n : ℕ) (h : n < cfg0.N) (col : Fin 128),
    ((outsAt0 V c n h).2.1 : S1x128.Idx → EReal) (ix2 (0 : Fin 1) col)
        = blockSums (fun i => rows V c i col) n (lt_of_lt_of_eq h N_0)
    ∧ ((outsAt0 V c n h).2.2 : S1x128.Idx → EReal) (ix2 (0 : Fin 1) col)
        = blockSums (fun i => rows V c i col * rows V c i col) n (lt_of_lt_of_eq h N_0)
  | 0, h, col => by
    have hA := outsAt0_A V c ⟨0, h⟩ rfl
    constructor
    · rw [hA]
      dsimp only
      rw [outA5 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (iblk0 V c 0 ⟨0, h⟩) (iblk0 V c 1 ⟨0, h⟩) (iblk0 V c 2 ⟨0, h⟩) (iblk0 V c 3 ⟨0, h⟩),
        pay4_apply, pay1_apply, blockSums]
      refine congrArg (0 + ·) (Finset.sum_congr rfl fun p _ => ?_)
      exact pay3_blocks V c ⟨0, h⟩ p col
    · rw [hA]
      dsimp only
      rw [outA6 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) ((hcond0_0 ⟨0, h⟩).mpr rfl) (iblk0 V c 0 ⟨0, h⟩) (iblk0 V c 1 ⟨0, h⟩) (iblk0 V c 2 ⟨0, h⟩) (iblk0 V c 3 ⟨0, h⟩),
        pay5_apply, pay2_apply, blockSums]
      refine congrArg (0 + ·) (Finset.sum_congr rfl fun p _ => ?_)
      rw [pay3_blocks V c ⟨0, h⟩ p col]
  | n + 1, h, col => by
    have hN : cfg0.N = 10 := N_0
    have hB : ¬(⟨n + 1, h⟩ : Fin cfg0.N).val % 10 = 0 := by dsimp only; omega
    have ih := sums_eq c n (Nat.lt_of_succ_lt h) col
    have hBeq := outsAt0_B V c ⟨n + 1, h⟩ hB
    constructor
    · rw [hBeq]
      dsimp only
      rw [outB5 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) _ _,
        pay4_apply, blockSums]
      refine congr (congrArg (· + ·) ih.1) (Finset.sum_congr rfl fun p _ => ?_)
      exact pay3_blocks V c ⟨n + 1, h⟩ p col
    · rw [hBeq]
      dsimp only
      rw [outB6 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) _ _,
        pay5_apply, blockSums]
      refine congr (congrArg (· + ·) ih.2) (Finset.sum_congr rfl fun p _ => ?_)
      rw [pay3_blocks V c ⟨n + 1, h⟩ p col]

end Cert.KernelIdeal.KVal

end
-- ==== Proof.Region0Final.lean ====
/-
  What the first region's three result arrays end holding: every grid point writes its block of
  `rows` back, and the ten blocks tile the array; the two running rows are written back once, after the
  last point, when they hold the sums over all ten blocks.
-/
import proofs.«174260_j43593918054564_2_alg».proof.Proof.Region0

set_option maxRecDepth 16384

noncomputable section

namespace Cert.KernelIdeal.KVal

open Cert.KernelIdeal Cert.KernelIdeal.Gen Cert.Repack
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The running sum depends only on the column function and the block count. -/
theorem blockSums_congr {g g' : Fin 50000 → EReal} {n n' : ℕ} (h : n < 10) (h' : n' < 10) (hg : g = g') (hn : n = n') :
    blockSums g n h = blockSums g' n' h' := by
  subst hg; subst hn; rfl

/-- The rows array, the column sums row and the sums-of-squares row, as whole arrays. -/
abbrev rowsArr (c : Dev nD) : S50000x128.Idx → EReal := fun j => rows V c (j 0) (j 1)
abbrev sumsArr (c : Dev nD) : S1x128.Idx → EReal := fun j => blockSums (fun i => rows V c i (j 1)) 9 (by norm_num)
abbrev sqsArr (c : Dev nD) : S1x128.Idx → EReal :=
  fun j => blockSums (fun i => rows V c i (j 1) * rows V c i (j 1)) 9 (by norm_num)

theorem mem_blk4 (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v24_0).slice (win0_4.rect t)).set ↔ _
  rw [View.set_slice_whole, Rect.mem_set_unit]
  exact Iff.rfl

theorem mem_blk5 (t : Fin cfg0.N) (i : S1x128.Idx) :
    i ∈ ((cfg0.win 5).blk t).view.set ↔ ∀ a : Fin 2, win0_5.index t a * S1x128.size a ≤ (i a).val
      ∧ (i a).val < win0_5.index t a * S1x128.size a + S1x128.size a := by
  show i ∈ ((View.whole main_v24_1).slice (win0_5.rect t)).set ↔ _
  rw [View.set_slice_whole, Rect.mem_set_unit]
  exact Iff.rfl

theorem mem_blk6 (t : Fin cfg0.N) (i : S1x128.Idx) :
    i ∈ ((cfg0.win 6).blk t).view.set ↔ ∀ a : Fin 2, win0_6.index t a * S1x128.size a ≤ (i a).val
      ∧ (i a).val < win0_6.index t a * S1x128.size a + S1x128.size a := by
  show i ∈ ((View.whole main_v24_2).slice (win0_6.rect t)).set ↔ _
  rw [View.set_slice_whole, Rect.mem_set_unit]
  exact Iff.rfl

/-- Point `t` writes back block `t` of the rows array. -/
theorem flushed4_eq (c : Dev nD) (t : Fin cfg0.N) :
    (dat0 V c).flushed 4 t = ((cfg0.win 4).blk t).view.read (Elt Ideal) (rowsArr V c) := by
  show (cfg0.win 4).cut (grid0.coords t) ((dat0 V c).after 4 t) = _
  rw [after0_4, out4_eq]
  funext j
  obtain ⟨p, col, rfl⟩ : ∃ (p : Fin 5000) (col : Fin 128), j = ix2 p col := ⟨j 0, j 1, eq_ix2 j⟩
  rw [View.read_apply]
  refine (pay3_blocks V c t p col).trans ?_
  obtain ⟨-, -, -, -, -, -, -, -, e0, e1, -⟩ := idx_facts0 t
  show rows V c _ _ = rows V c ((((cfg0.win 4).blk t).view.emb (ix2 p col)) 0) ((((cfg0.win 4).blk t).view.emb (ix2 p col)) 1)
  congr 1
  · apply Fin.ext
    show 5000 * t.val + p.val = win0_4.index t (0 : Fin 2) * 5000 + 1 * p.val
    rw [e0]; omega
  · apply Fin.ext
    show col.val = win0_4.index t (1 : Fin 2) * 128 + 1 * col.val
    rw [e1]; omega

/-- The rows array after the region. -/
theorem final4 (c : Dev nD) : (dat0 V c).arrAt 4 cfg0.N = rowsArr V c :=
  (dat0 V c).arrAt_eq_of_cover 4 (rowsArr V c) (fun t _ => flushed4_eq V c t) fun i => by
    have hN : cfg0.N = 10 := N_0
    have hi0 : (i 0).val < 50000 := (i 0).isLt
    have hi1 : (i 1).val < 128 := (i 1).isLt
    refine ⟨⟨(i 0).val / 5000, by rw [hN]; omega⟩, flush0_4 _, ?_⟩
    rw [mem_blk4]
    obtain ⟨-, -, -, -, -, -, -, -, e0, e1, -⟩ := idx_facts0 ⟨(i 0).val / 5000, by rw [hN]; omega⟩
    intro a
    match a with
    | ⟨0, _⟩ =>
      show win0_4.index _ (0 : Fin 2) * 5000 ≤ (i 0).val ∧ (i 0).val < win0_4.index _ (0 : Fin 2) * 5000 + 5000
      rw [e0]; dsimp only; omega
    | ⟨1, _⟩ =>
      show win0_4.index _ (1 : Fin 2) * 128 ≤ (i 1).val ∧ (i 1).val < win0_4.index _ (1 : Fin 2) * 128 + 128
      rw [e1]; omega

/-- The last point writes back the column sums over all ten blocks. -/
theorem flushed5_eq (c : Dev nD) (t : Fin cfg0.N) (hf : (cfg0.win 5).flush t = true) :
    (dat0 V c).flushed 5 t = ((cfg0.win 5).blk t).view.read (Elt Ideal) (sumsArr V c) := by
  have hN : cfg0.N = 10 := N_0
  have h9 : t.val = 9 := by have := (flush0_5 t).mp hf; have := t.isLt; omega
  show (cfg0.win 5).cut (grid0.coords t) ((dat0 V c).after 5 t) = _
  rw [after0_5]
  funext j
  obtain ⟨u, col, rfl⟩ : ∃ (u : Fin 1) (col : Fin 128), j = ix2 u col := ⟨j 0, j 1, eq_ix2 j⟩
  obtain rfl : u = 0 := Subsingleton.elim _ _
  rw [View.read_apply]
  refine ((sums_eq V c t.val t.isLt col).1).trans ?_
  obtain ⟨-, -, -, -, -, -, -, -, -, -, e0, e1, -⟩ := idx_facts0 t
  refine blockSums_congr _ _ (funext fun i => congrArg (rows V c i) (Fin.ext ?_)) h9
  show col.val = win0_5.index t (1 : Fin 2) * 128 + 1 * col.val
  rw [e1]; omega

theorem final5 (c : Dev nD) : (dat0 V c).arrAt 5 cfg0.N = sumsArr V c :=
  (dat0 V c).arrAt_eq_of_cover 5 (sumsArr V c) (fun t hf => flushed5_eq V c t hf) fun i => by
    have hN : cfg0.N = 10 := N_0
    have hi0 : (i 0).val < 1 := (i 0).isLt
    have hi1 : (i 1).val < 128 := (i 1).isLt
    refine ⟨⟨9, by rw [hN]; norm_num⟩, (flush0_5 _).mpr rfl, ?_⟩
    rw [mem_blk5]
    obtain ⟨-, -, -, -, -, -, -, -, -, -, e0, e1, -⟩ := idx_facts0 ⟨9, by rw [hN]; norm_num⟩
    intro a
    match a with
    | ⟨0, _⟩ =>
      show win0_5.index _ (0 : Fin 2) * 1 ≤ (i 0).val ∧ (i 0).val < win0_5.index _ (0 : Fin 2) * 1 + 1
      rw [e0]; omega
    | ⟨1, _⟩ =>
      show win0_5.index _ (1 : Fin 2) * 128 ≤ (i 1).val ∧ (i 1).val < win0_5.index _ (1 : Fin 2) * 128 + 128
      rw [e1]; omega

/-- The last point writes back the column sums of squares over all ten blocks. -/
theorem flushed6_eq (c : Dev nD) (t : Fin cfg0.N) (hf : (cfg0.win 6).flush t = true) :
    (dat0 V c).flushed 6 t = ((cfg0.win 6).blk t).view.read (Elt Ideal) (sqsArr V c) := by
  have hN : cfg0.N = 10 := N_0
  have h9 : t.val = 9 := by have := (flush0_6 t).mp hf; have := t.isLt; omega
  show (cfg0.win 6).cut (grid0.coords t) ((dat0 V c).after 6 t) = _
  rw [after0_6]
  funext j
  obtain ⟨u, col, rfl⟩ : ∃ (u : Fin 1) (col : Fin 128), j = ix2 u col := ⟨j 0, j 1, eq_ix2 j⟩
  obtain rfl : u = 0 := Subsingleton.elim _ _
  rw [View.read_apply]
  refine ((sums_eq V c t.val t.isLt col).2).trans ?_
  obtain ⟨-, -, -, -, -, -, -, -, -, -, -, -, e0, e1⟩ := idx_facts0 t
  have hc : col = (((cfg0.win 6).blk t).view.emb (ix2 (0 : Fin 1) col)) 1 := by
    apply Fin.ext
    show col.val = win0_6.index t (1 : Fin 2) * 128 + 1 * col.val
    rw [e1]; omega
  exact blockSums_congr _ _ (funext fun i => by rw [← hc]) h9

theorem final6 (c : Dev nD) : (dat0 V c).arrAt 6 cfg0.N = sqsArr V c :=
  (dat0 V c).arrAt_eq_of_cover 6 (sqsArr V c) (fun t hf => flushed6_eq V c t hf) fun i => by
    have hN : cfg0.N = 10 := N_0
    have hi0 : (i 0).val < 1 := (i 0).isLt
    have hi1 : (i 1).val < 128 := (i 1).isLt
    refine ⟨⟨9, by rw [hN]; norm_num⟩, (flush0_6 _).mpr rfl, ?_⟩
    rw [mem_blk6]
    obtain ⟨-, -, -, -, -, -, -, -, -, -, -, -, e0, e1⟩ := idx_facts0 ⟨9, by rw [hN]; norm_num⟩
    intro a
    match a with
    | ⟨0, _⟩ =>
      show win0_6.index _ (0 : Fin 2) * 1 ≤ (i 0).val ∧ (i 0).val < win0_6.index _ (0 : Fin 2) * 1 + 1
      rw [e0]; omega
    | ⟨1, _⟩ =>
      show win0_6.index _ (1 : Fin 2) * 128 ≤ (i 1).val ∧ (i 1).val < win0_6.index _ (1 : Fin 2) * 128 + 128
      rw [e1]; omega

end Cert.KernelIdeal.KVal

end
-- ==== Proof.Spec.lean ====
/-
  The mathematics both programs compute, as functions of the argument arrays over the extended reals.

  A graph-isomorphism layer followed by a batch normalisation over the 100000 nodes and a ReLU:
  with `a` the neighbour sums (one opaque array here: both programs build it by the same gather and
  scatter-add of `x`),
    lin r j   = (∑ k, (x r k + a r k) · W k j) + b j
    mean j    = (∑ r, lin r j) / 100000
    var j     = (∑ r, (lin r j − mean j)²) / 100000
    out r j   = max (γ j · (lin r j − mean j) · rsqrt (var j + ε) + β j) 0.
  The kernel takes the variance as `max ((∑ r, (lin r j)²) / 100000 − (mean j)², 0)` instead (`varRaw`);
  on finite `lin` the two agree (Proof/Algebra.lean).
-/
import Idealize.ShloMosaic.PureOps.Ideal
import Idealize.ShloMosaic.Lib.ValueIdx

noncomputable section

namespace Cert.NormSpec

open Idealize.ShloMosaic Idealize.ShloMosaic.ValueIdx

/-- Nodes × channels, the weight matrix, a per-channel vector. -/
abbrev SX : Shape := ⟨2, ![100000, 64]⟩
abbrev SW : Shape := ⟨2, ![64, 64]⟩
abbrev SV : Shape := ⟨1, ![64]⟩

/-- The number of nodes as both programs spell it (the f32 pattern of 100000.0) and the variance's ε. -/
def nodes : EReal := Ideal.ofBits .f32 0x47C35000#32
def eps : EReal := Ideal.ofBits .f32 0x3727C5AC#32

/-- The linear layer on a node's own features plus its neighbour sum. -/
def lin (x a : SX.Idx → EReal) (W : SW.Idx → EReal) (b : SV.Idx → EReal) (r : Fin 100000) (j : Fin 64) : EReal :=
  (∑ k : Fin 64, (x (ix2 r k) + a (ix2 r k)) * W (ix2 k j)) + b (ix1 j)

/-- A channel's mean over the nodes. -/
def mean (h : Fin 100000 → Fin 64 → EReal) (j : Fin 64) : EReal :=
  Ideal.div (∑ r : Fin 100000, h r j) nodes

/-- A channel's variance as the mean of the squared deviations. -/
def var (h : Fin 100000 → Fin 64 → EReal) (j : Fin 64) : EReal :=
  Ideal.div (∑ r : Fin 100000, (h r j - mean h j) * (h r j - mean h j)) nodes

/-- The same variance as the mean of the squares minus the squared mean, clamped at zero. -/
def varRaw (h : Fin 100000 → Fin 64 → EReal) (j : Fin 64) : EReal :=
  max (Ideal.div (∑ r : Fin 100000, h r j * h r j) nodes - mean h j * mean h j) 0

/-- Normalise with a given variance `v`, scale, shift, clamp below at zero. -/
def normWith (v : Fin 64 → EReal) (h : Fin 100000 → Fin 64 → EReal) (g be : SV.Idx → EReal)
    (r : Fin 100000) (j : Fin 64) : EReal :=
  max (g (ix1 j) * (h r j - mean h j) * Ideal.rsqrt (v j + eps) + be (ix1 j)) 0

/-- The layer's result, as an array. -/
def out (x a : SX.Idx → EReal) (W : SW.Idx → EReal) (b g be : SV.Idx → EReal) : SX.Idx → EReal :=
  fun i => normWith (var (lin x a W b)) (lin x a W b) g be (i 0) (i 1)

/-- The same with the clamped raw variance. -/
def outRaw (x a : SX.Idx → EReal) (W : SW.Idx → EReal) (b g be : SV.Idx → EReal) : SX.Idx → EReal :=
  fun i => normWith (varRaw (lin x a W b)) (lin x a W b) g be (i 0) (i 1)

end Cert.NormSpec

end
-- ==== Proof.KernelForm.lean ====
/-
  The same layer as the kernel arranges it. Two consecutive nodes are packed side by side into one
  128-wide row (node 2i in lanes 0…63, node 2i+1 in lanes 64…127), so with X₂, A₂ the packed features
  and neighbour sums, W₂ the 128×128 block-diagonal copy of W and b₂, γ₂, β₂ the vectors tiled twice:
    packedLin i c   = (∑ k : Fin 128, (X₂ (i,k) + A₂ (i,k)) · W₂ (k,c)) + b₂ (0,c)
    a channel's sum = the sum of its two lanes' column sums over the 50000 packed rows,
  the mean and the clamped raw variance from those sums, and
    packedOut i c   = max (γ₂ (0,c) · ((h i c − μ₂ (0,c)) · rsqrt (v₂ (0,c) + ε)) + β₂ (0,c)) 0.
-/
import proofs.«174260_j43593918054564_2_alg».proof.Proof.Spec

noncomputable section

namespace Cert.NormSpec

open Idealize.ShloMosaic Idealize.ShloMosaic.ValueIdx

/-- Packed nodes × lanes, the block-diagonal matrix, a tiled row. -/
abbrev SP : Shape := ⟨2, ![50000, 128]⟩
abbrev SM : Shape := ⟨2, ![128, 128]⟩
abbrev SR : Shape := ⟨2, ![1, 128]⟩

/-- A packed row through the block-diagonal linear layer. -/
def packedLin (X2 A2 : SP.Idx → EReal) (W2 : SM.Idx → EReal) (b2 : SR.Idx → EReal) (i : Fin 50000) (c : Fin 128) : EReal :=
  (∑ k : Fin 128, (X2 (ix2 i k) + A2 (ix2 i k)) * W2 (ix2 k c)) + b2 (ix2 (0 : Fin 1) c)

/-- A lane's sum over the packed rows. -/
def laneTotal (f : Fin 50000 → Fin 128 → EReal) (c : Fin 128) : EReal := ∑ i : Fin 50000, f i c

/-- A channel's mean from its two lanes' totals. -/
def packedMean (f : Fin 50000 → Fin 128 → EReal) (j : Fin 64) : EReal :=
  Ideal.div (laneTotal f ⟨j.val, by have := j.isLt; omega⟩ + laneTotal f ⟨64 + j.val, by have := j.isLt; omega⟩) nodes

/-- A channel's clamped raw variance from its two lanes' totals of squares. -/
def packedVar (f : Fin 50000 → Fin 128 → EReal) (j : Fin 64) : EReal :=
  max (Ideal.div (laneTotal (fun i c => f i c * f i c) ⟨j.val, by have := j.isLt; omega⟩
        + laneTotal (fun i c => f i c * f i c) ⟨64 + j.val, by have := j.isLt; omega⟩) nodes
      - packedMean f j * packedMean f j) 0

/-- The second kernel's arithmetic on a packed element. -/
def packedOut (h : Fin 50000 → Fin 128 → EReal) (mu2 v2 g2 be2 : SR.Idx → EReal) (i : Fin 50000) (c : Fin 128) : EReal :=
  max (g2 (ix2 (0 : Fin 1) c) * ((h i c - mu2 (ix2 (0 : Fin 1) c)) * Ideal.rsqrt (v2 (ix2 (0 : Fin 1) c) + eps))
    + be2 (ix2 (0 : Fin 1) c)) 0

end Cert.NormSpec

end
-- ==== Proof.Region1.lean ====
/-
  The second kernel region, read as values. With h the packed rows ([50000, 128]) and μ₂, v₂, γ₂, β₂ the mean,
  variance, scale and shift rows ([1, 128]) as the region finds them,
    out (i, c) = max (γ₂ (0,c) · ((h (i,c) − μ₂ (0,c)) · rsqrt (v₂ (0,c) + ε)) + β₂ (0,c)) 0.
  Grid point t (of ten) handles rows 5000·t … 5000·t+4999: it reads that block of h and the four rows, and writes
  that block of the result. The ten blocks tile the 50000 rows, so the result array ends holding `out` everywhere.
-/
import proofs.«174260_j43593918054564_2_alg».proof.Proof.Gen.KernelIdeal.Frame
import proofs.«174260_j43593918054564_2_alg».proof.Proof.Payload
import proofs.«174260_j43593918054564_2_alg».proof.Proof.KernelForm
import Idealize.ShloMosaic.Lib.Pipeline.Value
import Idealize.ShloMosaic.Lib.ValueIdx

set_option maxRecDepth 16384

noncomputable section

namespace Cert.KernelIdeal.KVal

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offset of a whole-block access, as a constant function. -/
theorem r1_hz : (![0, 0] : Fin 2 → Nat) = fun _ => 0 := funext fun a => by fin_cases a <;> rfl

/-- The result the region leaves, as one function of the arrays it finds: the normalisation, scale, shift and clamp
    of each packed element with its lane's mean, variance, scale and shift. -/
def r1_out (c : Dev nD) : S50000x128.Idx → EReal := fun j =>
  Cert.NormSpec.packedOut (fun i col => (V c main_v24_0 : S50000x128.Idx → EReal) (ix2 i col))
    (V c main_v54 : S1x128.Idx → EReal) (V c main_v58 : S1x128.Idx → EReal)
    (V c main_v46 : S1x128.Idx → EReal) (V c main_v50 : S1x128.Idx → EReal) (j 0) (j 1)

/-- Where each window's block sits at a grid point: the row blocks of h and of the result move with the point, the
    four rows stay. -/
theorem r1_idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of block t is a row of the array. -/
theorem r1_row_lt (t : Fin cfg1.N) (p : Fin 5000) : 5000 * t.val + p.val < 50000 := by
  have := t.isLt; have hN : cfg1.N = 10 := N_1; have := p.isLt; omega

/-- The block of h at point `t` is rows 5000·t … of the array. -/
theorem r1_blk0_apply (c : Dev nD) (t : Fin cfg1.N) (p : Fin 5000) (k : Fin 128) :
    (iblk1 V c 0 t : S5000x128.Idx → EReal) (ix2 p k)
      = (V c main_v24_0 : S50000x128.Idx → EReal) (ix2 ⟨5000 * t.val + p.val, r1_row_lt t p⟩ k) := by
  unfold iblk1
  rw [View.read_apply]
  show (V c main_v24_0 : S50000x128.Idx → EReal) (((cfg1.win 0).blk t).view.emb (ix2 p k)) = _
  refine congrArg (V c main_v24_0 : S50000x128.Idx → EReal) ?_
  funext a; apply Fin.ext
  obtain ⟨e0, e1, -⟩ := r1_idx_facts t
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- The mean row's one block is the row. -/
theorem r1_blk1_apply (c : Dev nD) (t : Fin cfg1.N) (col : Fin 128) :
    (iblk1 V c 1 t : S1x128.Idx → EReal) (ix2 (0 : Fin 1) col) = (V c main_v54 : S1x128.Idx → EReal) (ix2 (0 : Fin 1) col) := by
  unfold iblk1
  rw [View.read_apply]
  show (V c main_v54 : S1x128.Idx → EReal) (((cfg1.win 1).blk t).view.emb (ix2 (0 : Fin 1) col)) = _
  refine congrArg (V c main_v54 : S1x128.Idx → EReal) ?_
  funext a; apply Fin.ext
  obtain ⟨-, -, e0, e1, -⟩ := r1_idx_facts t
  match a with
  | ⟨0, _⟩ => show win1_1.index t (0 : Fin 2) * 1 + 1 * 0 = 0; rw [e0]
  | ⟨1, _⟩ => show win1_1.index t (1 : Fin 2) * 128 + 1 * col.val = col.val; rw [e1]; omega

/-- The variance row's one block is the row. -/
theorem r1_blk2_apply (c : Dev nD) (t : Fin cfg1.N) (col : Fin 128) :
    (iblk1 V c 2 t : S1x128.Idx → EReal) (ix2 (0 : Fin 1) col) = (V c main_v58 : S1x128.Idx → EReal) (ix2 (0 : Fin 1) col) := by
  unfold iblk1
  rw [View.read_apply]
  show (V c main_v58 : S1x128.Idx → EReal) (((cfg1.win 2).blk t).view.emb (ix2 (0 : Fin 1) col)) = _
  refine congrArg (V c main_v58 : S1x128.Idx → EReal) ?_
  funext a; apply Fin.ext
  obtain ⟨-, -, -, -, e0, e1, -⟩ := r1_idx_facts t
  match a with
  | ⟨0, _⟩ => show win1_2.index t (0 : Fin 2) * 1 + 1 * 0 = 0; rw [e0]
  | ⟨1, _⟩ => show win1_2.index t (1 : Fin 2) * 128 + 1 * col.val = col.val; rw [e1]; omega

/-- The scale row's one block is the row. -/
theorem r1_blk3_apply (c : Dev nD) (t : Fin cfg1.N) (col : Fin 128) :
    (iblk1 V c 3 t : S1x128.Idx → EReal) (ix2 (0 : Fin 1) col) = (V c main_v46 : S1x128.Idx → EReal) (ix2 (0 : Fin 1) col) := by
  unfold iblk1
  rw [View.read_apply]
  show (V c main_v46 : S1x128.Idx → EReal) (((cfg1.win 3).blk t).view.emb (ix2 (0 : Fin 1) col)) = _
  refine congrArg (V c main_v46 : S1x128.Idx → EReal) ?_
  funext a; apply Fin.ext
  obtain ⟨-, -, -, -, -, -, e0, e1, -⟩ := r1_idx_facts t
  match a with
  | ⟨0, _⟩ => show win1_3.index t (0 : Fin 2) * 1 + 1 * 0 = 0; rw [e0]
  | ⟨1, _⟩ => show win1_3.index t (1 : Fin 2) * 128 + 1 * col.val = col.val; rw [e1]; omega

/-- The shift row's one block is the row. -/
theorem r1_blk4_apply (c : Dev nD) (t : Fin cfg1.N) (col : Fin 128) :
    (iblk1 V c 4 t : S1x128.Idx → EReal) (ix2 (0 : Fin 1) col) = (V c main_v50 : S1x128.Idx → EReal) (ix2 (0 : Fin 1) col) := by
  unfold iblk1
  rw [View.read_apply]
  show (V c main_v50 : S1x128.Idx → EReal) (((cfg1.win 4).blk t).view.emb (ix2 (0 : Fin 1) col)) = _
  refine congrArg (V c main_v50 : S1x128.Idx → EReal) ?_
  funext a; apply Fin.ext
  obtain ⟨-, -, -, -, -, -, -, -, e0, e1, -⟩ := r1_idx_facts t
  match a with
  | ⟨0, _⟩ => show win1_4.index t (0 : Fin 2) * 1 + 1 * 0 = 0; rw [e0]
  | ⟨1, _⟩ => show win1_4.index t (1 : Fin 2) * 128 + 1 * col.val = col.val; rw [e1]; omega

/-- Element (p, col) of the result's block at point `t` is element (5000·t + p, col) of the array. -/
theorem r1_emb5 (t : Fin cfg1.N) (p : Fin 5000) (col : Fin 128) :
    (((cfg1.win 5).blk t).view.emb (ix2 p col) : S50000x128.Idx) = ix2 ⟨5000 * t.val + p.val, r1_row_lt t p⟩ col := by
  funext a; apply Fin.ext
  obtain ⟨-, -, -, -, -, -, -, -, -, -, e0, e1⟩ := r1_idx_facts t
  match a with
  | ⟨0, _⟩ => show win1_5.index t (0 : Fin 2) * 5000 + 1 * p.val = 5000 * t.val + p.val; rw [e0]; omega
  | ⟨1, _⟩ => show win1_5.index t (1 : Fin 2) * 128 + 1 * col.val = col.val; rw [e1]; omega

/-- WHAT POINT `t` WRITES BACK is block `t` of `r1_out`. -/
theorem r1_flushed_eq (c : Dev nD) (t : Fin cfg1.N) :
    (dat1 V c).flushed 5 t = ((cfg1.win 5).blk t).view.read (Elt Ideal) (r1_out V c) := by
  show (cfg1.win 5).cut (grid1.coords t) ((dat1 V c).after 5 t) = _
  rw [after1_5]
  unfold out1_5
  rw [View.canon_unit_zero r1_hz]
  simp only [View.ld_unit_zero (S := S5000x128) r1_hz, View.ld_unit_zero (S := S1x128) r1_hz]
  funext j
  obtain ⟨p, col, rfl⟩ : ∃ (p : Fin 5000) (col : Fin 128), j = ix2 p col := ⟨j 0, j 1, eq_ix2 j⟩
  rw [View.read_apply, r1_emb5]
  refine (pay1k1_apply (iblk1 V c 2 t) (iblk1 V c 0 t) (iblk1 V c 1 t) (iblk1 V c 3 t) (iblk1 V c 4 t) p col).trans ?_
  rw [r1_blk0_apply, r1_blk1_apply, r1_blk2_apply, r1_blk3_apply, r1_blk4_apply]
  rfl

/-- An index of the array is in point `t`'s block iff each coordinate is in the block's range on its axis. -/
theorem r1_mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v59).slice (win1_5.rect t)).set ↔ _
  rw [View.set_slice_whole, Rect.mem_set_unit]
  exact Iff.rfl

/-- THE COVER: row r lies in the block of point r div 5000, and every point writes its block back. -/
theorem r1_cover (i : S50000x128.Idx) :
    ∃ t : Fin cfg1.N, (cfg1.win 5).flush t = true ∧ i ∈ ((cfg1.win 5).blk t).view.set := by
  have hN : cfg1.N = 10 := N_1
  have hi0 : (i 0).val < 50000 := (i 0).isLt
  have hi1 : (i 1).val < 128 := (i 1).isLt
  have ht : (i 0).val / 5000 < cfg1.N := by omega
  refine ⟨⟨(i 0).val / 5000, ht⟩, flush1_5 _, ?_⟩
  rw [r1_mem_blk]
  obtain ⟨-, -, -, -, -, -, -, -, -, -, e0, e1⟩ := r1_idx_facts ⟨(i 0).val / 5000, ht⟩
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e1]
    omega

/-- THE RESULT ARRAY after the region: `out` of the arrays the region finds, everywhere. -/
theorem final1 (c : Dev nD) :
    (dat1 V c).arrAt 5 cfg1.N = fun j : S50000x128.Idx =>
      Cert.NormSpec.packedOut (fun i col => (V c main_v24_0 : S50000x128.Idx → EReal) (ix2 i col))
        (V c main_v54 : S1x128.Idx → EReal) (V c main_v58 : S1x128.Idx → EReal)
        (V c main_v46 : S1x128.Idx → EReal) (V c main_v50 : S1x128.Idx → EReal) (j 0) (j 1) :=
  (dat1 V c).arrAt_eq_of_cover 5 (r1_out V c) (fun t _ => r1_flushed_eq V c t) (r1_cover)

/-- The same at an element. -/
theorem final1_apply (c : Dev nD) (i : Fin 50000) (col : Fin 128) :
    ((dat1 V c).arrAt 5 cfg1.N : S50000x128.Idx → EReal) (ix2 i col)
      = Cert.NormSpec.packedOut (fun i col => (V c main_v24_0 : S50000x128.Idx → EReal) (ix2 i col))
        (V c main_v54 : S1x128.Idx → EReal) (V c main_v58 : S1x128.Idx → EReal)
        (V c main_v46 : S1x128.Idx → EReal) (V c main_v50 : S1x128.Idx → EReal) i col := by
  rw [final1]

end Cert.KernelIdeal.KVal

end
-- ==== Proof.Host0.lean ====
/-
  The arrays the first kernel region is entered with, as terms of the launch memory: the features
  repacked two nodes to a row, the neighbour sums (gathered by source, scatter-added by destination)
  repacked the same way, the 128×128 block-diagonal matrix [[W, 0], [0, W]], and the bias tiled twice.
-/
import proofs.«174260_j43593918054564_2_alg».proof.Proof.Gen.KernelIdeal.Frame
import Idealize.ShloMosaic.Lib.StableHlo.Run
import Idealize.ShloMosaic.PureOps.Ideal

set_option maxRecDepth 16384

noncomputable section

namespace Cert.KernelIdeal.KVal

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The six argument arrays at launch. -/
abbrev argX (c : Dev nD) : FVec Ideal S100000x64 .f32 := m ((c : Thread nD τ).loc main_arg0)
abbrev argE (c : Dev nD) : IVec S2x1600000 32 := m ((c : Thread nD τ).loc main_arg1)
abbrev argW (c : Dev nD) : FVec Ideal S64x64 .f32 := m ((c : Thread nD τ).loc main_arg2)
abbrev argB (c : Dev nD) : FVec Ideal S64 .f32 := m ((c : Thread nD τ).loc main_arg3)
abbrev argG (c : Dev nD) : FVec Ideal S64 .f32 := m ((c : Thread nD τ).loc main_arg4)
abbrev argBe (c : Dev nD) : FVec Ideal S64 .f32 := m ((c : Thread nD τ).loc main_arg5)

/-- The source and destination node of every edge, and the source wrapped into range. -/
def srcIdx (e : IVec S2x1600000 32) : IVec S1600000 32 :=
  shapeCast S1600000 (extractStridedSlice S1x1600000 ![0, 0] e slices_S2x1600000_S1x1600000_0_0) shapeCasts_S1x1600000_S1600000
def dstIdx (e : IVec S2x1600000 32) : IVec S1600000 32 :=
  shapeCast S1600000 (extractStridedSlice S1x1600000 ![1, 0] e slices_S2x1600000_S1x1600000_1_0) shapeCasts_S1x1600000_S1600000
def srcWrapped (e : IVec S2x1600000 32) : IVec S1600000 32 :=
  select (cmpi .slt (srcIdx e) (broadcastInDim S1600000 ![] bcast_S_S1600000 (constantI S_ 32 0#32)))
    (addi (srcIdx e) (broadcastInDim S1600000 ![] bcast_S_S1600000 (constantI S_ 32 100000#32))) (srcIdx e)

/-- The neighbour sums: each node's sum of its in-edges' source features. -/
def agg (x : FVec Ideal S100000x64 .f32) (e : IVec S2x1600000 32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (dstIdx e))
    (Host.gather gather_S100000x64_S1600000x1_S1600000x64_1_0_n_n_0_1_164 x
      (broadcastInDim S1600000x1 ![0] bcast_S1600000_S1600000x1_0 (srcWrapped e)))

/-- The zero 64×64 block. -/
abbrev zero64 : FVec Ideal S64x64 .f32 := broadcastInDim S64x64 ![] bcast_S_S64x64 (constant (F := Ideal) S_ .f32 0x00000000#32)

/-- A 64-vector tiled twice into a [1,128] row. -/
abbrev tile2 (v : FVec Ideal S64 .f32) : FVec Ideal S1x128 .f32 :=
  shapeCast S1x128 (shapeCast S128 (broadcastInDim S2x64 ![0, 1] bcast_S1x64_S2x64_0_1 (shapeCast S1x64 v shapeCasts_S64_S1x64))
    shapeCasts_S2x64_S128) shapeCasts_S128_S1x128

theorem entry_X (c : Dev nD) : (V1 m ρ c main_v14 : FVec Ideal S50000x128 .f32)
    = shapeCast S50000x128 (argX m c) shapeCasts_S100000x64_S50000x128 := by
  show StableHlo.after hostOps0 (W0 m ρ c) (Proc.devRef .tc main_v14) = _
  after_results
  rfl

theorem entry_A (c : Dev nD) : (V1 m ρ c main_v15 : FVec Ideal S50000x128 .f32)
    = shapeCast S50000x128 (agg (argX m c) (argE m c)) shapeCasts_S100000x64_S50000x128 := by
  show StableHlo.after hostOps0 (W0 m ρ c) (Proc.devRef .tc main_v15) = _
  after_results
  rfl

theorem entry_W (c : Dev nD) : (V1 m ρ c main_v19 : FVec Ideal S128x128 .f32)
    = concatenate S128x128 0
        [⟨S64x128, concatenate S64x128 1 [⟨S64x64, argW m c⟩, ⟨S64x64, zero64⟩] concatenates_S64x64_S64x64_S64x128_d1⟩,
         ⟨S64x128, concatenate S64x128 1 [⟨S64x64, zero64⟩, ⟨S64x64, argW m c⟩] concatenates_S64x64_S64x64_S64x128_d1⟩]
        concatenates_S64x128_S64x128_S128x128_d0 := by
  show StableHlo.after hostOps0 (W0 m ρ c) (Proc.devRef .tc main_v19) = _
  after_results

theorem entry_B (c : Dev nD) : (V1 m ρ c main_v23 : FVec Ideal S1x128 .f32) = tile2 (argB m c) := by
  show StableHlo.after hostOps0 (W0 m ρ c) (Proc.devRef .tc main_v23) = _
  after_results
  rfl

end Cert.KernelIdeal.KVal

end
-- ==== Proof.Host1.lean ====
/-
  Between the two kernel regions: the [1,128] rows of column sums and sums of squares are folded to
  per-channel statistics — a channel's sum is the sum of its two lanes (even nodes in lanes 0…63, odd
  nodes in lanes 64…127), the mean is that over 100000, the variance the mean of squares minus the
  squared mean clamped at zero — and mean, variance, scale and shift are tiled twice into [1,128] rows.
-/
import proofs.«174260_j43593918054564_2_alg».proof.Proof.Host0

set_option maxRecDepth 16384

noncomputable section

namespace Cert.KernelIdeal.KVal

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The two halves of a [1,128] row, as 64-vectors. -/
abbrev half0 (s : FVec Ideal S1x128 .f32) : FVec Ideal S64 .f32 :=
  shapeCast S64 (extractStridedSlice S1x64 ![0, 0] s slices_S1x128_S1x64_0_0) shapeCasts_S1x64_S64
abbrev half1 (s : FVec Ideal S1x128 .f32) : FVec Ideal S64 .f32 :=
  shapeCast S64 (extractStridedSlice S1x64 ![0, 64] s slices_S1x128_S1x64_0_64) shapeCasts_S1x64_S64

/-- The node count, splat over the channels. -/
abbrev nodesV : FVec Ideal S64 .f32 := broadcastInDim S64 ![] bcast_S_S64 (constant (F := Ideal) S_ .f32 0x47C35000#32)

/-- The per-channel mean and clamped raw variance from the two rows of sums. -/
def meanV (s : FVec Ideal S1x128 .f32) : FVec Ideal S64 .f32 :=
  Host.divf (F := Ideal) (addf (half0 s) (half1 s)) nodesV
def varV (s q : FVec Ideal S1x128 .f32) : FVec Ideal S64 .f32 :=
  maximumf (subf (Host.divf (F := Ideal) (addf (half0 q) (half1 q)) nodesV) (mulf (meanV s) (meanV s)))
    (broadcastInDim S64 ![] bcast_S_S64 (constant (F := Ideal) S_ .f32 0x00000000#32))

/-- The rows of sums and of sums of squares as the first region leaves them. -/
abbrev midS (c : Dev nD) : FVec Ideal S1x128 .f32 := W2 m ρ c (Proc.devRef .tc main_v24_1)
abbrev midQ (c : Dev nD) : FVec Ideal S1x128 .f32 := W2 m ρ c (Proc.devRef .tc main_v24_2)

theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)

theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)

theorem mid_H (c : Dev nD) : V3 m ρ c main_v24_0 = W2 m ρ c (Proc.devRef .tc main_v24_0) := by
  show StableHlo.after hostOps1 (W2 m ρ c) (Proc.devRef .tc main_v24_0) = _
  after_results

theorem mid_mu (c : Dev nD) : (V3 m ρ c main_v54 : FVec Ideal S1x128 .f32) = tile2 (meanV (midS m ρ c)) := by
  show StableHlo.after hostOps1 (W2 m ρ c) (Proc.devRef .tc main_v54) = _
  after_results
  rfl

set_option maxHeartbeats 4000000 in
theorem mid_var (c : Dev nD) : (V3 m ρ c main_v58 : FVec Ideal S1x128 .f32) = tile2 (varV (midS m ρ c) (midQ m ρ c)) := by
  show StableHlo.after hostOps1 (W2 m ρ c) (Proc.devRef .tc main_v58) = _
  after_results
  rfl

theorem mid_g (c : Dev nD) : (V3 m ρ c main_v46 : FVec Ideal S1x128 .f32) = tile2 (argG m c) := by
  show StableHlo.after hostOps1 (W2 m ρ c) (Proc.devRef .tc main_v46) = _
  after_results
  rw [W2_arg4]
  rfl

theorem mid_be (c : Dev nD) : (V3 m ρ c main_v50 : FVec Ideal S1x128 .f32) = tile2 (argBe m c) := by
  show StableHlo.after hostOps1 (W2 m ρ c) (Proc.devRef .tc main_v50) = _
  after_results
  rw [W2_arg5]
  rfl

/-- After the second region, the result array is its output array unpacked back to [100000,64]. -/
theorem tail_out (c : Dev nD) : (W5 m ρ c (Proc.devRef .tc main_v60) : FVec Ideal S100000x64 .f32)
    = shapeCast S100000x64 (W4 m ρ c (Proc.devRef .tc main_v59) : FVec Ideal S50000x128 .f32) shapeCasts_S50000x128_S100000x64 := by
  show StableHlo.after hostOps2 (W4 m ρ c) (Proc.devRef .tc main_v60) = _
  after_results
  rfl

end Cert.KernelIdeal.KVal

end
-- ==== Proof.Bridge.lean ====
/-
  The bridge between the packed arrangement and the specification.

  Two consecutive nodes share a 128-wide row: lane c of packed row i holds channel c mod 64 of node
  2i + c div 64, and the 128×128 matrix is block diagonal with two copies of W. A packed row through that
  matrix is therefore the linear layer of its node (the off-diagonal block contributes products with zero);
  a channel's two lane totals are its sums over the even and over the odd nodes, so together its sum over
  all nodes; hence the packed mean and clamped raw variance are the specification's, and the final
  arithmetic differs only by the association of a product.
-/
import proofs.«174260_j43593918054564_2_alg».proof.Proof.KernelForm
import proofs.«174260_j43593918054564_2_alg».proof.Proof.LibSums

noncomputable section

namespace Cert.NormSpec

open Idealize.ShloMosaic Idealize.ShloMosaic.ValueIdx

/-- The node that lane `c` of packed row `i` holds. -/
theorem node_lt (i : Fin 50000) (c : Fin 128) : 2 * i.val + c.val / 64 < 100000 := by
  have := i.isLt; have := c.isLt; omega

/-- The channel that lane `c` holds. -/
theorem chan_lt (c : Fin 128) : c.val % 64 < 64 := Nat.mod_lt _ (by norm_num)

/-- A packed row through the block-diagonal matrix is the linear layer of the node its lane holds. -/
theorem packedLin_eq (x a : SX.Idx → EReal) (W : SW.Idx → EReal) (b : SV.Idx → EReal)
    (X2 A2 : SP.Idx → EReal) (W2 : SM.Idx → EReal) (b2 : SR.Idx → EReal)
    (hX : ∀ (i : Fin 50000) (c : Fin 128),
      X2 (ix2 i c) = x (ix2 (⟨2 * i.val + c.val / 64, node_lt i c⟩ : Fin 100000) (⟨c.val % 64, chan_lt c⟩ : Fin 64)))
    (hA : ∀ (i : Fin 50000) (c : Fin 128),
      A2 (ix2 i c) = a (ix2 (⟨2 * i.val + c.val / 64, node_lt i c⟩ : Fin 100000) (⟨c.val % 64, chan_lt c⟩ : Fin 64)))
    (hW : ∀ (k c : Fin 128), W2 (ix2 k c)
      = if k.val / 64 = c.val / 64 then W (ix2 (⟨k.val % 64, chan_lt k⟩ : Fin 64) (⟨c.val % 64, chan_lt c⟩ : Fin 64)) else 0)
    (hb : ∀ c : Fin 128, b2 (ix2 (0 : Fin 1) c) = b (ix1 (⟨c.val % 64, chan_lt c⟩ : Fin 64)))
    (i : Fin 50000) (c : Fin 128) :
    packedLin X2 A2 W2 b2 i c
      = lin x a W b (⟨2 * i.val + c.val / 64, node_lt i c⟩ : Fin 100000) (⟨c.val % 64, chan_lt c⟩ : Fin 64) := by
  have hc := c.isLt
  have hi := i.isLt
  unfold packedLin lin
  rw [hb c]
  refine congrArg₂ (· + ·) ?_ rfl
  -- the summand, with the packed arrays read back and the matrix entry as a masked entry of W
  have hs : ∀ k : Fin 128, (X2 (ix2 i k) + A2 (ix2 i k)) * W2 (ix2 k c)
      = (fun k : Fin 128 =>
            x (ix2 (⟨2 * i.val + k.val / 64, node_lt i k⟩ : Fin 100000) (⟨k.val % 64, chan_lt k⟩ : Fin 64))
            + a (ix2 (⟨2 * i.val + k.val / 64, node_lt i k⟩ : Fin 100000) (⟨k.val % 64, chan_lt k⟩ : Fin 64))) k
        * (if k.val / 64 = (⟨c.val / 64, by omega⟩ : Fin 2).val
            then (fun k' : Fin 64 => W (ix2 k' (⟨c.val % 64, chan_lt c⟩ : Fin 64))) ⟨k.val % 64, Nat.mod_lt _ (by norm_num)⟩
            else 0) := fun k => by
    rw [hX, hA, hW]
  refine (Finset.sum_congr rfl fun k _ => hs k).trans ?_
  refine (Cert.Repack.sum_block_diag
    (fun k : Fin 128 =>
      x (ix2 (⟨2 * i.val + k.val / 64, node_lt i k⟩ : Fin 100000) (⟨k.val % 64, chan_lt k⟩ : Fin 64))
      + a (ix2 (⟨2 * i.val + k.val / 64, node_lt i k⟩ : Fin 100000) (⟨k.val % 64, chan_lt k⟩ : Fin 64)))
    (fun k' : Fin 64 => W (ix2 k' (⟨c.val % 64, chan_lt c⟩ : Fin 64)))
    (⟨c.val / 64, by omega⟩ : Fin 2)).trans ?_
  refine Finset.sum_congr rfl fun k _ => ?_
  have hk := k.isLt
  have e1 : (⟨2 * i.val + (64 * (c.val / 64) + k.val) / 64, by omega⟩ : Fin 100000)
      = ⟨2 * i.val + c.val / 64, node_lt i c⟩ := Fin.ext (by show 2 * i.val + (64 * (c.val / 64) + k.val) / 64 = 2 * i.val + c.val / 64; omega)
  have e2 : (⟨(64 * (c.val / 64) + k.val) % 64, Nat.mod_lt _ (by norm_num)⟩ : Fin 64) = k :=
    Fin.ext (by show (64 * (c.val / 64) + k.val) % 64 = k.val; omega)
  dsimp only
  rw [e1, e2]

/-- A channel's two lane totals are its sum over all nodes: lane `j` runs over the even nodes, lane `64 + j` over
    the odd ones. -/
theorem laneTotals_eq (F : Fin 100000 → Fin 64 → EReal) (f : Fin 50000 → Fin 128 → EReal)
    (hf : ∀ (i : Fin 50000) (c : Fin 128),
      f i c = F (⟨2 * i.val + c.val / 64, node_lt i c⟩ : Fin 100000) (⟨c.val % 64, chan_lt c⟩ : Fin 64))
    (j : Fin 64) :
    laneTotal f ⟨j.val, by have := j.isLt; omega⟩ + laneTotal f ⟨64 + j.val, by have := j.isLt; omega⟩
      = ∑ r : Fin 100000, F r j := by
  have hj := j.isLt
  rw [Cert.Repack.sum_rows_even_odd (fun r => F r j)]
  unfold laneTotal
  refine congrArg₂ (· + ·) ?_ ?_
  · refine Finset.sum_congr rfl fun i _ => ?_
    have hi := i.isLt
    rw [hf]
    exact congrArg₂ F (Fin.ext (by show 2 * i.val + j.val / 64 = 2 * i.val; omega))
      (Fin.ext (by show j.val % 64 = j.val; omega))
  · refine Finset.sum_congr rfl fun i _ => ?_
    have hi := i.isLt
    rw [hf]
    exact congrArg₂ F (Fin.ext (by show 2 * i.val + (64 + j.val) / 64 = 2 * i.val + 1; omega))
      (Fin.ext (by show (64 + j.val) % 64 = j.val; omega))

/-- The packed mean of a packed copy is the mean. -/
theorem packedMean_eq (F : Fin 100000 → Fin 64 → EReal) (f : Fin 50000 → Fin 128 → EReal)
    (hf : ∀ (i : Fin 50000) (c : Fin 128),
      f i c = F (⟨2 * i.val + c.val / 64, node_lt i c⟩ : Fin 100000) (⟨c.val % 64, chan_lt c⟩ : Fin 64))
    (j : Fin 64) : packedMean f j = mean F j := by
  unfold packedMean mean
  rw [laneTotals_eq F f hf j]

/-- The packed clamped raw variance of a packed copy is the clamped raw variance. -/
theorem packedVar_eq (F : Fin 100000 → Fin 64 → EReal) (f : Fin 50000 → Fin 128 → EReal)
    (hf : ∀ (i : Fin 50000) (c : Fin 128),
      f i c = F (⟨2 * i.val + c.val / 64, node_lt i c⟩ : Fin 100000) (⟨c.val % 64, chan_lt c⟩ : Fin 64))
    (j : Fin 64) : packedVar f j = varRaw F j := by
  unfold packedVar varRaw
  rw [packedMean_eq F f hf j,
    laneTotals_eq (fun r j => F r j * F r j) (fun i c => f i c * f i c) (fun i c => by rw [hf i c]) j]

/-- The bridge at a packed position `(i, c)` holding node `r`, channel `j`. -/
theorem packed_bridge_at (x a : SX.Idx → EReal) (W : SW.Idx → EReal) (b g be : SV.Idx → EReal)
    (X2 A2 : SP.Idx → EReal) (W2 : SM.Idx → EReal) (b2 mu2 v2 g2 be2 : SR.Idx → EReal)
    (hX : ∀ (i : Fin 50000) (c : Fin 128),
      X2 (ix2 i c) = x (ix2 (⟨2 * i.val + c.val / 64, node_lt i c⟩ : Fin 100000) (⟨c.val % 64, chan_lt c⟩ : Fin 64)))
    (hA : ∀ (i : Fin 50000) (c : Fin 128),
      A2 (ix2 i c) = a (ix2 (⟨2 * i.val + c.val / 64, node_lt i c⟩ : Fin 100000) (⟨c.val % 64, chan_lt c⟩ : Fin 64)))
    (hW : ∀ (k c : Fin 128), W2 (ix2 k c)
      = if k.val / 64 = c.val / 64 then W (ix2 (⟨k.val % 64, chan_lt k⟩ : Fin 64) (⟨c.val % 64, chan_lt c⟩ : Fin 64)) else 0)
    (hb : ∀ c : Fin 128, b2 (ix2 (0 : Fin 1) c) = b (ix1 (⟨c.val % 64, chan_lt c⟩ : Fin 64)))
    (hg : ∀ c : Fin 128, g2 (ix2 (0 : Fin 1) c) = g (ix1 (⟨c.val % 64, chan_lt c⟩ : Fin 64)))
    (hbe : ∀ c : Fin 128, be2 (ix2 (0 : Fin 1) c) = be (ix1 (⟨c.val % 64, chan_lt c⟩ : Fin 64)))
    (hmu : ∀ c : Fin 128, mu2 (ix2 (0 : Fin 1) c)
      = packedMean (packedLin X2 A2 W2 b2) (⟨c.val % 64, chan_lt c⟩ : Fin 64))
    (hv : ∀ c : Fin 128, v2 (ix2 (0 : Fin 1) c)
      = packedVar (packedLin X2 A2 W2 b2) (⟨c.val % 64, chan_lt c⟩ : Fin 64))
    (r : Fin 100000) (j : Fin 64) (i : Fin 50000) (c : Fin 128)
    (hi : i.val = r.val / 2) (hc : c.val = 64 * (r.val % 2) + j.val) :
    packedOut (packedLin X2 A2 W2 b2) mu2 v2 g2 be2 i c
      = normWith (varRaw (lin x a W b)) (lin x a W b) g be r j := by
  have hj := j.isLt
  have hlin := packedLin_eq x a W b X2 A2 W2 b2 hX hA hW hb
  have e1 : (⟨c.val % 64, chan_lt c⟩ : Fin 64) = j := Fin.ext (by show c.val % 64 = j.val; omega)
  have e2 : (⟨2 * i.val + c.val / 64, node_lt i c⟩ : Fin 100000) = r :=
    Fin.ext (by show 2 * i.val + c.val / 64 = r.val; omega)
  unfold packedOut normWith
  rw [hg c, hbe c, hmu c, hv c, hlin i c, e1, e2,
    packedMean_eq (lin x a W b) (packedLin X2 A2 W2 b2) hlin j,
    packedVar_eq (lin x a W b) (packedLin X2 A2 W2 b2) hlin j, mul_assoc]

/-- THE BRIDGE. The second kernel's arithmetic on the packed element of node `r`, channel `j` — row `r div 2`,
    lane `64 (r mod 2) + j` — with the packed mean and variance in its tiled rows, is the specification's
    normalised element with the clamped raw variance. -/
theorem packed_bridge (x a : SX.Idx → EReal) (W : SW.Idx → EReal) (b g be : SV.Idx → EReal)
    (X2 A2 : SP.Idx → EReal) (W2 : SM.Idx → EReal) (b2 mu2 v2 g2 be2 : SR.Idx → EReal)
    (hX : ∀ (i : Fin 50000) (c : Fin 128),
      X2 (ix2 i c) = x (ix2 (⟨2 * i.val + c.val / 64, node_lt i c⟩ : Fin 100000) (⟨c.val % 64, chan_lt c⟩ : Fin 64)))
    (hA : ∀ (i : Fin 50000) (c : Fin 128),
      A2 (ix2 i c) = a (ix2 (⟨2 * i.val + c.val / 64, node_lt i c⟩ : Fin 100000) (⟨c.val % 64, chan_lt c⟩ : Fin 64)))
    (hW : ∀ (k c : Fin 128), W2 (ix2 k c)
      = if k.val / 64 = c.val / 64 then W (ix2 (⟨k.val % 64, chan_lt k⟩ : Fin 64) (⟨c.val % 64, chan_lt c⟩ : Fin 64)) else 0)
    (hb : ∀ c : Fin 128, b2 (ix2 (0 : Fin 1) c) = b (ix1 (⟨c.val % 64, chan_lt c⟩ : Fin 64)))
    (hg : ∀ c : Fin 128, g2 (ix2 (0 : Fin 1) c) = g (ix1 (⟨c.val % 64, chan_lt c⟩ : Fin 64)))
    (hbe : ∀ c : Fin 128, be2 (ix2 (0 : Fin 1) c) = be (ix1 (⟨c.val % 64, chan_lt c⟩ : Fin 64)))
    (hmu : ∀ c : Fin 128, mu2 (ix2 (0 : Fin 1) c)
      = packedMean (packedLin X2 A2 W2 b2) (⟨c.val % 64, chan_lt c⟩ : Fin 64))
    (hv : ∀ c : Fin 128, v2 (ix2 (0 : Fin 1) c)
      = packedVar (packedLin X2 A2 W2 b2) (⟨c.val % 64, chan_lt c⟩ : Fin 64))
    (r : Fin 100000) (j : Fin 64) :
    packedOut (packedLin X2 A2 W2 b2) mu2 v2 g2 be2
        (⟨r.val / 2, by have := r.isLt; omega⟩ : Fin 50000)
        (⟨64 * (r.val % 2) + j.val, by have := j.isLt; omega⟩ : Fin 128)
      = normWith (varRaw (lin x a W b)) (lin x a W b) g be r j :=
  packed_bridge_at x a W b g be X2 A2 W2 b2 mu2 v2 g2 be2 hX hA hW hb hg hbe hmu hv r j _ _ rfl rfl

end Cert.NormSpec

end
-- ==== Proof.LibRepack.lean ====
/-
  Layout lemmas for a row-pair repacking: a [100000, 64] array held as [50000, 128] by a row-major reshape
  (rows 2i and 2i+1 side by side), a [64] vector tiled twice to [1, 128], the halves of a [1, 128] row, each read
  at an index named by its coordinates.
-/
import Idealize.ShloMosaic.Lib.Pipeline.Value
import Idealize.ShloMosaic.Lib.ValueIdx

namespace Cert.Repack

open Idealize.ShloMosaic Idealize.ShloMosaic.ValueIdx

section Layout
variable {α : Type}

/-- PACK. The row-major reshape [100000, 64] → [50000, 128] puts rows 2i and 2i+1 side by side: column c of packed
    row i is column c mod 64 of row 2i + c div 64 (both positions are 128·i + c). -/
theorem pack_apply (x : (⟨2, ![100000, 64]⟩ : Shape).Idx → α)
    (h : (⟨2, ![100000, 64]⟩ : Shape).ShapeCasts ⟨2, ![50000, 128]⟩) (i : Fin 50000) (c : Fin 128) :
    shapeCast (⟨2, ![50000, 128]⟩ : Shape) x h (ix2 i c)
      = x (ix2 (⟨2 * i.val + c.val / 64, by have := i.isLt; have := c.isLt; omega⟩ : Fin 100000)
              (⟨c.val % 64, by omega⟩ : Fin 64)) := by
  refine shapeCast_apply x h _ _ ?_
  rw [Shape.rowMajor_val_two, Shape.rowMajor_val_two]
  show (2 * i.val + c.val / 64) * 64 + c.val % 64 = i.val * 128 + c.val
  omega

/-- UNPACK. The row-major reshape [50000, 128] → [100000, 64] back: column j of row r is column 64·(r mod 2) + j of
    packed row r div 2 (both positions are 64·r + j). -/
theorem unpack_apply (y : (⟨2, ![50000, 128]⟩ : Shape).Idx → α)
    (h : (⟨2, ![50000, 128]⟩ : Shape).ShapeCasts ⟨2, ![100000, 64]⟩) (r : Fin 100000) (j : Fin 64) :
    shapeCast (⟨2, ![100000, 64]⟩ : Shape) y h (ix2 r j)
      = y (ix2 (⟨r.val / 2, by have := r.isLt; omega⟩ : Fin 50000)
              (⟨64 * (r.val % 2) + j.val, by have := j.isLt; omega⟩ : Fin 128)) := by
  refine shapeCast_apply y h _ _ ?_
  rw [Shape.rowMajor_val_two, Shape.rowMajor_val_two]
  show r.val / 2 * 128 + (64 * (r.val % 2) + j.val) = r.val * 64 + j.val
  omega

/-- TILE. A [64] vector reshaped to [1, 64], repeated along a new leading axis of extent 2, flattened to [128] and
    reshaped to [1, 128] reads, in column c of its one row, the vector's entry c mod 64. -/
theorem tile_apply (v : (⟨1, ![64]⟩ : Shape).Idx → α)
    (h1 : (⟨1, ![64]⟩ : Shape).ShapeCasts ⟨2, ![1, 64]⟩)
    (hb : (⟨2, ![1, 64]⟩ : Shape).BroadcastsInDim ⟨2, ![2, 64]⟩ (![0, 1] : Fin 2 → Fin (⟨2, ![2, 64]⟩ : Shape).rank))
    (h2 : (⟨2, ![2, 64]⟩ : Shape).ShapeCasts ⟨1, ![128]⟩)
    (h3 : (⟨1, ![128]⟩ : Shape).ShapeCasts ⟨2, ![1, 128]⟩) (c : Fin 128) :
    shapeCast (⟨2, ![1, 128]⟩ : Shape)
        (shapeCast (⟨1, ![128]⟩ : Shape)
          (broadcastInDim (⟨2, ![2, 64]⟩ : Shape) (![0, 1] : Fin 2 → Fin (⟨2, ![2, 64]⟩ : Shape).rank) hb
            (shapeCast (⟨2, ![1, 64]⟩ : Shape) v h1)) h2) h3 (ix2 (0 : Fin 1) c)
      = v (ix1 (⟨c.val % 64, by omega⟩ : Fin 64)) := by
  refine (shapeCast_apply _ h3 _ (ix1 c) ?_).trans ?_
  · rw [Shape.rowMajor_val_one, Shape.rowMajor_val_two]
    show c.val = 0 * 128 + c.val
    omega
  refine (shapeCast_apply _ h2 _ (ix2 (⟨c.val / 64, by have := c.isLt; omega⟩ : Fin 2) (⟨c.val % 64, by omega⟩ : Fin 64)) ?_).trans ?_
  · rw [Shape.rowMajor_val_one, Shape.rowMajor_val_two]
    show c.val / 64 * 64 + c.val % 64 = c.val
    omega
  refine (broadcastInDim_apply _ hb _ _ (ix2 (0 : Fin 1) (⟨c.val % 64, by omega⟩ : Fin 64)) ?_).trans ?_
  · intro a
    match a with
    | ⟨0, _⟩ => rfl
    | ⟨1, _⟩ => rfl
  refine shapeCast_apply v h1 _ _ ?_
  rw [Shape.rowMajor_val_one, Shape.rowMajor_val_two]
  show c.val % 64 = 0 * 64 + c.val % 64
  omega

/-- FIRST HALF. Columns 0 … 63 of a [1, 128] row, as a [64] vector: entry j is column j. -/
theorem half0_apply (s : (⟨2, ![1, 128]⟩ : Shape).Idx → α)
    (hs : (⟨2, ![1, 128]⟩ : Shape).Slices ![0, 0] ⟨2, ![1, 64]⟩)
    (h : (⟨2, ![1, 64]⟩ : Shape).ShapeCasts ⟨1, ![64]⟩) (j : Fin 64) :
    shapeCast (⟨1, ![64]⟩ : Shape) (extractStridedSlice (⟨2, ![1, 64]⟩ : Shape) ![0, 0] s hs) h (ix1 j)
      = s (ix2 (0 : Fin 1) (⟨j.val, by have := j.isLt; omega⟩ : Fin 128)) := by
  refine (shapeCast_apply _ h _ (ix2 (0 : Fin 1) j) ?_).trans ?_
  · rw [Shape.rowMajor_val_one, Shape.rowMajor_val_two]
    show 0 * 64 + j.val = j.val
    omega
  refine extractStridedSlice_apply _ s hs _ _ ?_
  intro a
  match a with
  | ⟨0, _⟩ => rfl
  | ⟨1, _⟩ => show j.val = 0 + j.val; omega

/-- SECOND HALF. Columns 64 … 127 of a [1, 128] row, as a [64] vector: entry j is column 64 + j. -/
theorem half1_apply (s : (⟨2, ![1, 128]⟩ : Shape).Idx → α)
    (hs : (⟨2, ![1, 128]⟩ : Shape).Slices ![0, 64] ⟨2, ![1, 64]⟩)
    (h : (⟨2, ![1, 64]⟩ : Shape).ShapeCasts ⟨1, ![64]⟩) (j : Fin 64) :
    shapeCast (⟨1, ![64]⟩ : Shape) (extractStridedSlice (⟨2, ![1, 64]⟩ : Shape) ![0, 64] s hs) h (ix1 j)
      = s (ix2 (0 : Fin 1) (⟨64 + j.val, by have := j.isLt; omega⟩ : Fin 128)) := by
  refine (shapeCast_apply _ h _ (ix2 (0 : Fin 1) j) ?_).trans ?_
  · rw [Shape.rowMajor_val_one, Shape.rowMajor_val_two]
    show 0 * 64 + j.val = j.val
    omega
  refine extractStridedSlice_apply _ s hs _ _ ?_
  intro a
  match a with
  | ⟨0, _⟩ => rfl
  | ⟨1, _⟩ => show 64 + j.val = 64 + j.val; rfl

end Layout

end Cert.Repack
-- ==== Proof.LibBlockDiag.lean ====
/-
  The block-diagonal matrix [[W, Z], [Z, W]] assembled from a [64, 64] block W and a second block Z by three
  concatenations, read at an index; a scalar spread over a whole shape; and a [64] vector spread along the rows of a
  [100000, 64] array through a unit leading axis.
-/
import Idealize.ShloMosaic.Lib.Pipeline.Value
import Idealize.ShloMosaic.Lib.ValueIdx

namespace Cert.Repack

open Idealize.ShloMosaic Idealize.ShloMosaic.ValueIdx

section BlockDiag
variable {α : Type}

/-- SIDE BY SIDE. Two [64, 64] blocks P, Q concatenated along the columns to [64, 128]: column c of row k is P's
    column c when c < 64 and Q's column c − 64 otherwise (in both cases the column is c mod 64). -/
theorem hcat_apply (P Q : (⟨2, ![64, 64]⟩ : Shape).Idx → α)
    (h1 : Shape.Concatenates [(⟨2, ![64, 64]⟩ : Shape), ⟨2, ![64, 64]⟩] ⟨2, ![64, 128]⟩ 1)
    (k : Fin 64) (c : Fin 128) :
    concatenate (⟨2, ![64, 128]⟩ : Shape) 1 [⟨⟨2, ![64, 64]⟩, P⟩, ⟨⟨2, ![64, 64]⟩, Q⟩] h1 (ix2 k c)
      = if c.val < 64 then P (ix2 k (⟨c.val % 64, Nat.mod_lt _ (by norm_num)⟩ : Fin 64))
        else Q (ix2 k (⟨c.val % 64, Nat.mod_lt _ (by norm_num)⟩ : Fin 64)) := by
  have hc := c.isLt
  by_cases hc64 : c.val < 64
  · rw [if_pos hc64]
    refine concatenate_pair_apply_left _ P Q h1 (ix2 k c) rfl
      (ix2 k (⟨c.val % 64, Nat.mod_lt _ (by norm_num)⟩ : Fin 64)) ?_
    intro b
    match b with
    | ⟨0, _⟩ => rfl
    | ⟨1, _⟩ => show c.val % 64 = c.val; omega
  · rw [if_neg hc64]
    refine concatenate_pair_apply_right _ P Q h1 (ix2 k c) rfl rfl
      (ix2 k (⟨c.val % 64, Nat.mod_lt _ (by norm_num)⟩ : Fin 64)) ?_ ?_
    · intro b hb
      match b, hb with
      | ⟨0, _⟩, _ => rfl
      | ⟨1, _⟩, hb => exact absurd rfl hb
    · show c.val % 64 + 64 = c.val
      omega

/-- ONE ABOVE THE OTHER. Two [64, 128] blocks A, B concatenated along the rows to [128, 128]: row k is A's row k when
    k < 64 and B's row k − 64 otherwise (in both cases the row is k mod 64). -/
theorem vcat_apply (A B : (⟨2, ![64, 128]⟩ : Shape).Idx → α)
    (h0 : Shape.Concatenates [(⟨2, ![64, 128]⟩ : Shape), ⟨2, ![64, 128]⟩] ⟨2, ![128, 128]⟩ 0)
    (k c : Fin 128) :
    concatenate (⟨2, ![128, 128]⟩ : Shape) 0 [⟨⟨2, ![64, 128]⟩, A⟩, ⟨⟨2, ![64, 128]⟩, B⟩] h0 (ix2 k c)
      = if k.val < 64 then A (ix2 (⟨k.val % 64, Nat.mod_lt _ (by norm_num)⟩ : Fin 64) c)
        else B (ix2 (⟨k.val % 64, Nat.mod_lt _ (by norm_num)⟩ : Fin 64) c) := by
  have hk := k.isLt
  by_cases hk64 : k.val < 64
  · rw [if_pos hk64]
    refine concatenate_pair_apply_left _ A B h0 (ix2 k c) rfl
      (ix2 (⟨k.val % 64, Nat.mod_lt _ (by norm_num)⟩ : Fin 64) c) ?_
    intro b
    match b with
    | ⟨0, _⟩ => show k.val % 64 = k.val; omega
    | ⟨1, _⟩ => rfl
  · rw [if_neg hk64]
    refine concatenate_pair_apply_right _ A B h0 (ix2 k c) rfl rfl
      (ix2 (⟨k.val % 64, Nat.mod_lt _ (by norm_num)⟩ : Fin 64) c) ?_ ?_
    · intro b hb
      match b, hb with
      | ⟨0, _⟩, hb => exact absurd rfl hb
      | ⟨1, _⟩, _ => rfl
    · show k.val % 64 + 64 = k.val
      omega

/-- BLOCK DIAGONAL. The [128, 128] matrix [[W, Z], [Z, W]] — (W, Z) side by side above (Z, W) side by side — has at
    row k, column c the entry (k mod 64, c mod 64) of W when k and c lie in the same half, and of Z otherwise. -/
theorem blockDiag_apply (W Z : (⟨2, ![64, 64]⟩ : Shape).Idx → α)
    (h1 : Shape.Concatenates [(⟨2, ![64, 64]⟩ : Shape), ⟨2, ![64, 64]⟩] ⟨2, ![64, 128]⟩ 1)
    (h0 : Shape.Concatenates [(⟨2, ![64, 128]⟩ : Shape), ⟨2, ![64, 128]⟩] ⟨2, ![128, 128]⟩ 0)
    (k c : Fin 128) :
    concatenate (⟨2, ![128, 128]⟩ : Shape) 0
        [⟨⟨2, ![64, 128]⟩, concatenate (⟨2, ![64, 128]⟩ : Shape) 1 [⟨⟨2, ![64, 64]⟩, W⟩, ⟨⟨2, ![64, 64]⟩, Z⟩] h1⟩,
         ⟨⟨2, ![64, 128]⟩, concatenate (⟨2, ![64, 128]⟩ : Shape) 1 [⟨⟨2, ![64, 64]⟩, Z⟩, ⟨⟨2, ![64, 64]⟩, W⟩] h1⟩]
        h0 (ix2 k c)
      = if k.val / 64 = c.val / 64
        then W (ix2 (⟨k.val % 64, Nat.mod_lt _ (by norm_num)⟩ : Fin 64) (⟨c.val % 64, Nat.mod_lt _ (by norm_num)⟩ : Fin 64))
        else Z (ix2 (⟨k.val % 64, Nat.mod_lt _ (by norm_num)⟩ : Fin 64) (⟨c.val % 64, Nat.mod_lt _ (by norm_num)⟩ : Fin 64)) := by
  have hk := k.isLt
  have hc := c.isLt
  rw [vcat_apply]
  by_cases hk64 : k.val < 64 <;> by_cases hc64 : c.val < 64
  · rw [if_pos hk64, hcat_apply, if_pos hc64, if_pos (by omega)]
  · rw [if_pos hk64, hcat_apply, if_neg hc64, if_neg (by omega)]
  · rw [if_neg hk64, hcat_apply, if_pos hc64, if_neg (by omega)]
  · rw [if_neg hk64, hcat_apply, if_neg hc64, if_pos (by omega)]

/-- The same with a zero second block (any Z that reads z everywhere): the entry is W's in the same half and z
    in the other. -/
theorem blockDiag_const_apply (W Z : (⟨2, ![64, 64]⟩ : Shape).Idx → α) (z : α) (hZ : ∀ i, Z i = z)
    (h1 : Shape.Concatenates [(⟨2, ![64, 64]⟩ : Shape), ⟨2, ![64, 64]⟩] ⟨2, ![64, 128]⟩ 1)
    (h0 : Shape.Concatenates [(⟨2, ![64, 128]⟩ : Shape), ⟨2, ![64, 128]⟩] ⟨2, ![128, 128]⟩ 0)
    (k c : Fin 128) :
    concatenate (⟨2, ![128, 128]⟩ : Shape) 0
        [⟨⟨2, ![64, 128]⟩, concatenate (⟨2, ![64, 128]⟩ : Shape) 1 [⟨⟨2, ![64, 64]⟩, W⟩, ⟨⟨2, ![64, 64]⟩, Z⟩] h1⟩,
         ⟨⟨2, ![64, 128]⟩, concatenate (⟨2, ![64, 128]⟩ : Shape) 1 [⟨⟨2, ![64, 64]⟩, Z⟩, ⟨⟨2, ![64, 64]⟩, W⟩] h1⟩]
        h0 (ix2 k c)
      = if k.val / 64 = c.val / 64
        then W (ix2 (⟨k.val % 64, Nat.mod_lt _ (by norm_num)⟩ : Fin 64) (⟨c.val % 64, Nat.mod_lt _ (by norm_num)⟩ : Fin 64))
        else z := by
  rw [blockDiag_apply, hZ]

end BlockDiag

section Splat
variable {α : Type}

/-- SPLAT. A rank-0 array spread over any shape reads its one element everywhere. -/
theorem splat_apply (S : Shape) (hb : (⟨0, ![]⟩ : Shape).BroadcastsInDim S (![] : Fin 0 → Fin S.rank))
    (x : (⟨0, ![]⟩ : Shape).Idx → α) (i : S.Idx) :
    broadcastInDim S (![] : Fin 0 → Fin S.rank) hb x i = x ix0 :=
  broadcastInDim_apply _ hb x i ix0 fun a => a.elim0

/-- A splat constant at the ideal instance, spread over any shape, reads the extended real its word encodes. -/
theorem splat_constant_apply (S : Shape) (hb : (⟨0, ![]⟩ : Shape).BroadcastsInDim S (![] : Fin 0 → Fin S.rank))
    (b : BitVec FTy.f32.bits) (i : S.Idx) :
    broadcastInDim S (![] : Fin 0 → Fin S.rank) hb (constant (F := Ideal) (⟨0, ![]⟩ : Shape) .f32 b) i
      = Ideal.ofBits .f32 b :=
  splat_apply S hb _ i

/-- KEEPDIMS. A [64] vector given a unit leading axis: entry (0, j) is entry j. -/
theorem keepdims_apply (v : (⟨1, ![64]⟩ : Shape).Idx → α)
    (h' : (⟨1, ![64]⟩ : Shape).BroadcastsInDim ⟨2, ![1, 64]⟩ (![1] : Fin 1 → Fin (⟨2, ![1, 64]⟩ : Shape).rank))
    (j : Fin 64) :
    broadcastInDim (⟨2, ![1, 64]⟩ : Shape) (![1] : Fin 1 → Fin (⟨2, ![1, 64]⟩ : Shape).rank) h' v (ix2 (0 : Fin 1) j)
      = v (ix1 j) := by
  refine broadcastInDim_apply _ h' v _ (ix1 j) ?_
  intro a
  match a with
  | ⟨0, _⟩ => rfl

/-- ROWS. A [1, 64] row repeated along 100000 rows: entry (r, j) is entry (0, j). -/
theorem rows_apply (u : (⟨2, ![1, 64]⟩ : Shape).Idx → α)
    (h : (⟨2, ![1, 64]⟩ : Shape).BroadcastsInDim ⟨2, ![100000, 64]⟩ (![0, 1] : Fin 2 → Fin (⟨2, ![100000, 64]⟩ : Shape).rank))
    (r : Fin 100000) (j : Fin 64) :
    broadcastInDim (⟨2, ![100000, 64]⟩ : Shape) (![0, 1] : Fin 2 → Fin (⟨2, ![100000, 64]⟩ : Shape).rank) h u (ix2 r j)
      = u (ix2 (0 : Fin 1) j) := by
  refine broadcastInDim_apply _ h u _ (ix2 (0 : Fin 1) j) ?_
  intro a
  match a with
  | ⟨0, _⟩ => rfl
  | ⟨1, _⟩ => rfl

/-- A [64] vector spread along the rows of a [100000, 64] array through a unit leading axis: entry (r, j) is
    entry j. -/
theorem rows_keepdims_apply (v : (⟨1, ![64]⟩ : Shape).Idx → α)
    (h' : (⟨1, ![64]⟩ : Shape).BroadcastsInDim ⟨2, ![1, 64]⟩ (![1] : Fin 1 → Fin (⟨2, ![1, 64]⟩ : Shape).rank))
    (h : (⟨2, ![1, 64]⟩ : Shape).BroadcastsInDim ⟨2, ![100000, 64]⟩ (![0, 1] : Fin 2 → Fin (⟨2, ![100000, 64]⟩ : Shape).rank))
    (r : Fin 100000) (j : Fin 64) :
    broadcastInDim (⟨2, ![100000, 64]⟩ : Shape) (![0, 1] : Fin 2 → Fin (⟨2, ![100000, 64]⟩ : Shape).rank) h
        (broadcastInDim (⟨2, ![1, 64]⟩ : Shape) (![1] : Fin 1 → Fin (⟨2, ![1, 64]⟩ : Shape).rank) h' v) (ix2 r j)
      = v (ix1 j) := by
  rw [rows_apply, keepdims_apply]

end Splat

end Cert.Repack
-- ==== Proof.Stats.lean ====
/-
  The per-channel statistics rows read at a lane. A [1, 128] row of column sums holds, for channel j, the sum over
  the even nodes in lane j and the sum over the odd nodes in lane 64 + j. The mean vector is their sum over the node
  count, the variance vector the like quotient of the sums of squares minus the squared mean, clamped at zero; each
  is tiled twice into a [1, 128] row, so lane c of the row holds the statistic of channel c mod 64.
-/
import proofs.«174260_j43593918054564_2_alg».proof.Proof.Host1
import proofs.«174260_j43593918054564_2_alg».proof.Proof.KernelForm
import proofs.«174260_j43593918054564_2_alg».proof.Proof.Bridge
import proofs.«174260_j43593918054564_2_alg».proof.Proof.LibRepack
import proofs.«174260_j43593918054564_2_alg».proof.Proof.LibBlockDiag
import Idealize.ShloMosaic.Lib.ValueIdx
import Idealize.ShloMosaic.PureOps.Ideal.Laws

set_option maxRecDepth 16384

noncomputable section

namespace Cert.KernelIdeal.KVal

open Cert.KernelIdeal Cert.KernelIdeal.Gen
open Idealize.ShloMosaic Idealize.ShloMosaic.TcCoe Idealize.SL.Sem Idealize.ShloMosaic.ValueIdx

/-- Lane j, the even nodes' lane of channel j. -/
theorem st_lo (j : Fin 64) : j.val < 128 := by have := j.isLt; omega
/-- Lane 64 + j, the odd nodes' lane of channel j. -/
theorem st_hi (j : Fin 64) : 64 + j.val < 128 := by have := j.isLt; omega

/-- TILE. Lane c of a 64-vector tiled twice is its entry c mod 64. -/
theorem st_tile (v : FVec Ideal S64 .f32) (c : Fin 128) :
    tile2 v (ix2 (0 : Fin 1) c) = v (ix1 (⟨c.val % 64, Cert.NormSpec.chan_lt c⟩ : Fin 64)) :=
  Cert.Repack.tile_apply v shapeCasts_S64_S1x64 bcast_S1x64_S2x64_0_1 shapeCasts_S2x64_S128 shapeCasts_S128_S1x128 c

/-- The node count splat over the channels reads the node count. -/
theorem st_nodesV_apply (j : Fin 64) : nodesV (ix1 j) = Cert.NormSpec.nodes :=
  Cert.Repack.splat_constant_apply S64 bcast_S_S64 _ (ix1 j)

/-- The sum of a row's two halves at channel j is lane j plus lane 64 + j. -/
theorem st_halves_apply (s : FVec Ideal S1x128 .f32) (j : Fin 64) :
    addf (half0 s) (half1 s) (ix1 j)
      = s (ix2 (0 : Fin 1) (⟨j.val, st_lo j⟩ : Fin 128)) + s (ix2 (0 : Fin 1) (⟨64 + j.val, st_hi j⟩ : Fin 128)) := by
  rw [addf_apply]
  exact congrArg₂ (· + ·)
    (Cert.Repack.half0_apply s slices_S1x128_S1x64_0_0 shapeCasts_S1x64_S64 j)
    (Cert.Repack.half1_apply s slices_S1x128_S1x64_0_64 shapeCasts_S1x64_S64 j)

/-- The mean vector at channel j: the two lanes' sums over the node count. -/
theorem st_meanV_apply (s : FVec Ideal S1x128 .f32) (j : Fin 64) :
    meanV s (ix1 j)
      = Ideal.div (s (ix2 (0 : Fin 1) (⟨j.val, st_lo j⟩ : Fin 128)) + s (ix2 (0 : Fin 1) (⟨64 + j.val, st_hi j⟩ : Fin 128)))
          Cert.NormSpec.nodes := by
  unfold meanV
  show Ideal.div (addf (half0 s) (half1 s) (ix1 j)) (nodesV (ix1 j)) = _
  rw [st_halves_apply, st_nodesV_apply]

/-- The variance vector at channel j: the two lanes' sums of squares over the node count, minus the squared mean,
    clamped at zero. -/
theorem st_varV_apply (s q : FVec Ideal S1x128 .f32) (j : Fin 64) :
    varV s q (ix1 j)
      = max (Ideal.div (q (ix2 (0 : Fin 1) (⟨j.val, st_lo j⟩ : Fin 128)) + q (ix2 (0 : Fin 1) (⟨64 + j.val, st_hi j⟩ : Fin 128)))
              Cert.NormSpec.nodes
            - meanV s (ix1 j) * meanV s (ix1 j)) 0 := by
  unfold varV
  rw [maximumf_apply, subf_apply, mulf_apply, Cert.Repack.splat_constant_apply, Ideal.ofBits_zero_f32]
  show max (Ideal.div (addf (half0 q) (half1 q) (ix1 j)) (nodesV (ix1 j)) - _) 0 = _
  rw [st_halves_apply, st_nodesV_apply]

/-- MEAN ROW. When the row of sums holds the lane totals of f, lane c of the tiled mean row is the packed mean of
    channel c mod 64. -/
theorem st_mean (S : FVec Ideal S1x128 .f32) (f : Fin 50000 → Fin 128 → EReal)
    (hS : ∀ col : Fin 128, S (ix2 (0 : Fin 1) col) = Cert.NormSpec.laneTotal f col) (c : Fin 128) :
    tile2 (meanV S) (ix2 (0 : Fin 1) c) = Cert.NormSpec.packedMean f (⟨c.val % 64, Cert.NormSpec.chan_lt c⟩ : Fin 64) := by
  rw [st_tile, st_meanV_apply, hS, hS]
  rfl

/-- VARIANCE ROW. When the rows of sums and of sums of squares hold the lane totals of f and of its square, lane c
    of the tiled variance row is the packed clamped raw variance of channel c mod 64. -/
theorem st_var (S Q : FVec Ideal S1x128 .f32) (f : Fin 50000 → Fin 128 → EReal)
    (hS : ∀ col : Fin 128, S (ix2 (0 : Fin 1) col) = Cert.NormSpec.laneTotal f col)
    (hQ : ∀ col : Fin 128, Q (ix2 (0 : Fin 1) col) = Cert.NormSpec.laneTotal (fun i c => f i c * f i c) col) (c : Fin 128) :
    tile2 (varV S Q) (ix2 (0 : Fin 1) c) = Cert.NormSpec.packedVar f (⟨c.val % 64, Cert.NormSpec.chan_lt c⟩ : Fin 64) := by
  rw [st_tile, st_varV_apply, st_meanV_apply, hQ, hQ, hS, hS]
  rfl

end Cert.KernelIdeal.KVal

end
-- ==== Proof.KernelValue.lean ====
/-
  The idealized kernel program's result, as one function of its argument arrays: the packed arrays
  the first region is entered with are the arguments re-laid (two nodes to a row, the block-diagonal
  matrix, the tiled vectors); the region leaves the packed linear layer and its column sums; the
  per-channel statistics between the regions are the packed mean and clamped raw variance; the second
  region normalises, scales, shifts and clamps; and the last reshape unpacks the rows. Unpacked, that is
  the layer's specification with the clamped raw variance (`Cert.NormSpec.outRaw`).
-/
import proofs.«174260_j43593918054564_2_alg».proof.Proof.RunNamed
import proofs.«174260_j43593918054564_2_alg».proof.Proof.Region0Final
import proofs.«174260_j43593918054564_2_alg».proof.Proof.Region1
import proofs.«174260_j43593918054564_2_alg».proof.Proof.Host1
import proofs.«174260_j43593918054564_2_alg».proof.Proof.Stats
import proofs.«174260_j43593918054564_2_alg».proof.Proof.Bridge
import proofs.«174260_j43593918054564_2_alg».proof.Proof.LibRepack
import proofs.«174260_j43593918054564_2_alg».proof.Proof.LibBlockDiag

set_option maxRecDepth 16384

noncomputable section

namespace Cert.KernelIdeal.KVal

open Cert.KernelIdeal Cert.KernelIdeal.Gen Cert.Repack
open Idealize.ShloMosaic Idealize.ShloMosaic.TcCoe Idealize.SL.Sem Idealize.ShloMosaic.ValueIdx

variable (m : (ℓ : Loc nD τ sig) → Buf (Elt Ideal) ℓ) (ρ : Dev nD → PrngReg)

/-- What the first region leaves in its three result arrays. -/
theorem mid_rows (c : Dev nD) : (W2 m ρ c (Proc.devRef .tc main_v24_0) : FVec Ideal S50000x128 .f32) = rowsArr (V1 m ρ) c :=
  (W2_arr m ρ c 4).trans (final4 (V1 m ρ) c)
theorem mid_sums (c : Dev nD) : midS m ρ c = sumsArr (V1 m ρ) c :=
  (W2_arr m ρ c 5).trans (final5 (V1 m ρ) c)
theorem mid_sqs (c : Dev nD) : midQ m ρ c = sqsArr (V1 m ρ) c :=
  (W2_arr m ρ c 6).trans (final6 (V1 m ρ) c)

/-- The packed linear layer of the arrays the first region is entered with. -/
abbrev packed (c : Dev nD) : Fin 50000 → Fin 128 → EReal :=
  Cert.NormSpec.packedLin (inX (V1 m ρ) c) (inA (V1 m ρ) c) (inW (V1 m ρ) c) (inB (V1 m ρ) c)

theorem rows_eq_packed (c : Dev nD) (i : Fin 50000) (col : Fin 128) : rows (V1 m ρ) c i col = packed m ρ c i col := rfl

/-- The rows of sums are the packed layer's lane totals. -/
theorem sums_lane (c : Dev nD) (col : Fin 128) :
    midS m ρ c (ix2 (0 : Fin 1) col) = Cert.NormSpec.laneTotal (packed m ρ c) col := by
  rw [mid_sums]
  show blockSums (fun i => rows (V1 m ρ) c i col) 9 _ = _
  rw [blockSums_last]
  rfl
theorem sqs_lane (c : Dev nD) (col : Fin 128) :
    midQ m ρ c (ix2 (0 : Fin 1) col) = Cert.NormSpec.laneTotal (fun i c' => packed m ρ c i c' * packed m ρ c i c') col := by
  rw [mid_sqs]
  show blockSums (fun i => rows (V1 m ρ) c i col * rows (V1 m ρ) c i col) 9 _ = _
  rw [blockSums_last]
  rfl

/-- The second region reads the first region's rows array as it was left. -/
theorem h_eq_packed (c : Dev nD) :
    (fun (i : Fin 50000) (col : Fin 128) => (V3 m ρ c main_v24_0 : S50000x128.Idx → EReal) (ix2 i col)) = packed m ρ c := by
  funext i col
  rw [mid_H, mid_rows]
  rfl

/-- THE RESULT ARRAY, as a function of the arguments. -/
theorem result_eq (c : Dev nD) : (W5 m ρ c (Proc.devRef .tc main_v60) : FVec Ideal S100000x64 .f32)
    = Cert.NormSpec.outRaw (argX m c) (agg (argX m c) (argE m c)) (argW m c) (argB m c) (argG m c) (argBe m c) := by
  funext i
  obtain ⟨r, j, rfl⟩ : ∃ (r : Fin 100000) (j : Fin 64), i = ix2 r j := ⟨i 0, i 1, eq_ix2 i⟩
  rw [tail_out, unpack_apply]
  rw [show (W4 m ρ c (Proc.devRef .tc main_v59) : FVec Ideal S50000x128 .f32) = (dat1 (V3 m ρ) c).arrAt 5 cfg1.N from W4_arr m ρ c 5]
  rw [final1_apply, h_eq_packed, mid_mu, mid_var, mid_g, mid_be]
  show _ = Cert.NormSpec.normWith (Cert.NormSpec.varRaw (Cert.NormSpec.lin (argX m c) (agg (argX m c) (argE m c)) (argW m c) (argB m c)))
    (Cert.NormSpec.lin (argX m c) (agg (argX m c) (argE m c)) (argW m c) (argB m c)) (argG m c) (argBe m c) r j
  refine Cert.NormSpec.packed_bridge (argX m c) (agg (argX m c) (argE m c)) (argW m c) (argB m c) (argG m c) (argBe m c)
    (inX (V1 m ρ) c) (inA (V1 m ρ) c) (inW (V1 m ρ) c) (inB (V1 m ρ) c)
    (tile2 (meanV (midS m ρ c))) (tile2 (varV (midS m ρ c) (midQ m ρ c))) (tile2 (argG m c)) (tile2 (argBe m c))
    ?hX ?hA ?hW ?hb ?hg ?hbe ?hmu ?hv r j
  case hX =>
    intro i c'
    show inX (V1 m ρ) c (ix2 i c') = _
    rw [show inX (V1 m ρ) c = shapeCast S50000x128 (argX m c) shapeCasts_S100000x64_S50000x128 from entry_X m ρ c]
    exact pack_apply _ _ i c'
  case hA =>
    intro i c'
    show inA (V1 m ρ) c (ix2 i c') = _
    rw [show inA (V1 m ρ) c = shapeCast S50000x128 (agg (argX m c) (argE m c)) shapeCasts_S100000x64_S50000x128 from entry_A m ρ c]
    exact pack_apply _ _ i c'
  case hW =>
    intro k c'
    show inW (V1 m ρ) c (ix2 k c') = _
    rw [show inW (V1 m ρ) c = _ from entry_W m ρ c]
    exact blockDiag_const_apply (argW m c) zero64 0
      (fun i => (splat_constant_apply S64x64 bcast_S_S64x64 0x00000000#32 i).trans Ideal.ofBits_zero_f32) _ _ k c'
  case hb =>
    intro c'
    show inB (V1 m ρ) c (ix2 (0 : Fin 1) c') = _
    rw [show inB (V1 m ρ) c = tile2 (argB m c) from entry_B m ρ c]
    exact st_tile (argB m c) c'
  case hg => exact fun c' => st_tile (argG m c) c'
  case hbe => exact fun c' => st_tile (argBe m c) c'
  case hmu => exact fun c' => st_mean (midS m ρ c) (packed m ρ c) (sums_lane m ρ c) c'
  case hv => exact fun c' => st_var (midS m ρ c) (midQ m ρ c) (packed m ρ c) (sums_lane m ρ c) (sqs_lane m ρ c) c'

/-- The run, read: the result array at the layer's specification (clamped raw variance form) of the
    arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v60)
        = Cert.NormSpec.outRaw (argX m c) (agg (argX m c) (argE m c)) (argW m c) (argB m c) (argG m c) (argBe m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_named m ρ)

end Cert.KernelIdeal.KVal

end
-- ==== Proof.RefTerm.lean ====
/-
  The reference program's values as terms of its arguments, one definition per stage, each written
  exactly as the program's operations compose it: the neighbour sums (a gather of the rows of `x` at the
  wrapped source indices, scatter-added at the destination indices into zeros), the linear layer, the
  channel means, the channel variances (centre, square, sum, divide by n − ddof with ddof = 0, and the select
  that guards a non-positive divisor), and the normalised, scaled, shifted and clamped result.
-/
import proofs.«174260_j43593918054564_2_alg».proof.Proof.Gen.ReferenceIdeal

noncomputable section

namespace Cert.ReferenceIdeal.RefValue

open Cert.ReferenceIdeal Cert.ReferenceIdeal.Gen Idealize.ShloMosaic

variable {F : FTy → Type} [FloatOps F]

/-- Row 0 of the edge table, flattened: the source node of every edge. -/
def srcIdx (e : IVec S2x1600000 32) : IVec S1600000 32 :=
  shapeCast S1600000 (extractStridedSlice S1x1600000 ![0, 0] e slices_S2x1600000_S1x1600000_0_0) shapeCasts_S1x1600000_S1600000

/-- Row 1 of the edge table, flattened: the destination node of every edge. -/
def dstIdx (e : IVec S2x1600000 32) : IVec S1600000 32 :=
  shapeCast S1600000 (extractStridedSlice S1x1600000 ![1, 0] e slices_S2x1600000_S1x1600000_1_0) shapeCasts_S1x1600000_S1600000

/-- The source indices with a negative one wrapped round by the number of nodes (a negative index counts from the end). -/
def srcWrapped (e : IVec S2x1600000 32) : IVec S1600000 32 :=
  select (cmpi .slt (srcIdx e) (broadcastInDim S1600000 ![] bcast_S_S1600000 (constantI S_ 32 0#32)))
    (addi (srcIdx e) (broadcastInDim S1600000 ![] bcast_S_S1600000 (constantI S_ 32 100000#32)))
    (srcIdx e)

/-- The neighbour sums: row `dst` collects the rows `x[src]` of every edge `src → dst`. The gather and the
    scatter-add stay folded: both programs apply the very same two operations to the same operands. -/
def agg (x : FVec F S100000x64 .f32) (e : IVec S2x1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (dstIdx e))
    (Host.gather gather_S100000x64_S1600000x1_S1600000x64_1_0_n_n_0_1_164 x
      (broadcastInDim S1600000x1 ![0] bcast_S1600000_S1600000x1_0 (srcWrapped e)))

/-- A per-channel vector laid along every row (keepdims, then the broadcast over the nodes). -/
def rows (v : FVec F S64 .f32) : FVec F S100000x64 .f32 :=
  broadcastInDim S100000x64 ![0, 1] bcast_S1x64_S100000x64_0_1 (broadcastInDim S1x64 ![1] bcast_S64_S1x64_1 v)

/-- The linear layer on `x + a`: `(x + a) W + b`. -/
def linT (x a : FVec F S100000x64 .f32) (W : FVec F S64x64 .f32) (b : FVec F S64 .f32) : FVec F S100000x64 .f32 :=
  addf (Host.dotGeneral dot_S100000x64_S64x64_S100000x64_1_0_0_1_n_n none (addf x a) W) (rows b)

/-- The channel means: the column sums divided by the number of nodes. -/
def meanT (h : FVec F S100000x64 .f32) : FVec F S64 .f32 :=
  Host.divf (Host.reduceAdd h (constant S_ .f32 0x00000000#32) reducesTo_S100000x64_S64_d0 h_S_)
    (broadcastInDim S64 ![] bcast_S_S64 (constant S_ .f32 0x47C35000#32))

/-- The variance's divisor n − ddof, with ddof the integer 0 converted. -/
def varDen : FVec F S_ .f32 :=
  subf (constant S_ .f32 0x47C35000#32) (sitofp .f32 (constantI S_ 32 0#32))

/-- The deviations from the mean as the variance takes them (the mean kept as a 1 × 64 row, divided there). -/
def devT (h : FVec F S100000x64 .f32) : FVec F S100000x64 .f32 :=
  subf h (broadcastInDim S100000x64 ![0, 1] bcast_S1x64_S100000x64_0_1
    (Host.divf (broadcastInDim S1x64 ![1] bcast_S64_S1x64_1
        (Host.reduceAdd h (constant S_ .f32 0x00000000#32) reducesTo_S100000x64_S64_d0 h_S_))
      (broadcastInDim S1x64 ![] bcast_S_S1x64 (constant S_ .f32 0x47C35000#32))))

/-- The channel variances: the column sums of the squared deviations over the divisor where that is positive,
    the not-a-number constant elsewhere. -/
def varT (h : FVec F S100000x64 .f32) : FVec F S64 .f32 :=
  select (broadcastInDim S64 ![] bcast_S_S64 (cmpf .ogt (varDen (F := F)) (constant S_ .f32 0x00000000#32)))
    (Host.divf (Host.reduceAdd (mulf (devT h) (devT h)) (constant S_ .f32 0x00000000#32) reducesTo_S100000x64_S64_d0 h_S_)
      (broadcastInDim S64 ![] bcast_S_S64 (varDen (F := F))))
    (broadcastInDim S64 ![] bcast_S_S64 (id (constant S_ .f32 0x7FC00000#32)))

/-- The normalised, scaled, shifted and clamped result: `max (γ (h − mean) · rsqrt (var + ε) + β, 0)`. -/
def outT (h : FVec F S100000x64 .f32) (g be : FVec F S64 .f32) : FVec F S100000x64 .f32 :=
  maximumf
    (addf
      (mulf (mulf (rows g) (subf h (rows (meanT h))))
        (rows (Host.rsqrt (addf (varT h) (broadcastInDim S64 ![] bcast_S_S64 (constant S_ .f32 0x3727C5AC#32))))))
      (rows be))
    (broadcastInDim S100000x64 ![] bcast_S_S100000x64 (constant S_ .f32 0x00000000#32))

/-- The whole layer from the six arguments. -/
def refOut (x : FVec F S100000x64 .f32) (e : IVec S2x1600000 32) (W : FVec F S64x64 .f32) (b g be : FVec F S64 .f32) :
    FVec F S100000x64 .f32 :=
  outT (linT x (agg x e) W b) g be

end Cert.ReferenceIdeal.RefValue

end
-- ==== Proof.RefRun.lean ====
/-
  The reference program's @main as one straight line of host operations, the three outlined functions
  (the variance with its select, and the ReLU) written out at their call sites over the calls' own
  buffers, and what every weakly fair execution of it leaves in the result buffer and the arguments:
  the layer's term of the launch contents (Proof/RefTerm.lean), the arguments unchanged.
-/
import proofs.«174260_j43593918054564_2_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's own operations up to the channel means (the gather, the scatter-add, the linear layer, the mean). -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_arg0 main_v13 main_v14 (addf : (⟨S100000x64, .f32⟩ : BufTy).Contents (Elt F) → (⟨S100000x64, .f32⟩ : BufTy).Contents (Elt F) → (⟨S100000x64, .f32⟩ : BufTy).Contents (Elt F)),
    binary main_v14 main_arg2 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v16 (broadcastInDim S1x64 ![1] bcast_S64_S1x64_1 : (⟨S64, .f32⟩ : BufTy).Contents (Elt F) → (⟨S1x64, .f32⟩ : BufTy).Contents (Elt F)),
    unary main_v16 main_v17 (broadcastInDim S100000x64 ![0, 1] bcast_S1x64_S100000x64_0_1 : (⟨S1x64, .f32⟩ : BufTy).Contents (Elt F) → (⟨S100000x64, .f32⟩ : BufTy).Contents (Elt F)),
    binary main_v15 main_v17 main_v18 (addf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x00000000#32),
    binary main_v18 main_cst_1 main_v19 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_2 (constant S_ .f32 0x47C35000#32),
    unary main_cst_2 main_v20 (broadcastInDim S64 ![] bcast_S_S64 : (⟨S_, .f32⟩ : BufTy).Contents (Elt F) → (⟨S64, .f32⟩ : BufTy).Contents (Elt F)),
    binary main_v19 main_v20 main_v21 (Host.divf : (⟨S64, .f32⟩ : BufTy).Contents (Elt F) → (⟨S64, .f32⟩ : BufTy).Contents (Elt F) → (⟨S64, .f32⟩ : BufTy).Contents (Elt F)),
    nullary main_c_3 (constantI S_ 32 0#32) ]

/-- The variance's operations over the first call's buffers, the select's three over the nested call's last. -/
abbrev opsV : List (HloOp τ sig (Elt F)) :=
  [ TRef.nullary main_call0.cst (constant S_ .f32 0x00000000#32),
    TRef.binary (.of main_v18) main_call0.cst main_call0.v0 (fun x v => Host.reduceAdd x v reducesTo_S100000x64_S64_d0 h_S_),
    TRef.unary main_call0.v0 main_call0.v1 (broadcastInDim S1x64 ![1] bcast_S64_S1x64_1),
    TRef.nullary main_call0.cst_0 (constant S_ .f32 0x47C35000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S100000x64 ![0, 1] bcast_S1x64_S100000x64_0_1),
    TRef.binary (.of main_v18) main_call0.v4 main_call0.v5 subf,
    TRef.binary main_call0.v5 main_call0.v5 main_call0.v6 mulf,
    TRef.unary (.of main_c_3) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b) ]

/-- @main's own operations after the variance: centre, scale, add ε, reciprocal square root, shift. -/
abbrev opsB : List (HloOp τ sig (Elt F)) :=
  [ unary main_v21 main_v23 (broadcastInDim S1x64 ![1] bcast_S64_S1x64_1 : (⟨S64, .f32⟩ : BufTy).Contents (Elt F) → (⟨S1x64, .f32⟩ : BufTy).Contents (Elt F)),
    unary main_v23 main_v24 (broadcastInDim S100000x64 ![0, 1] bcast_S1x64_S100000x64_0_1 : (⟨S1x64, .f32⟩ : BufTy).Contents (Elt F) → (⟨S100000x64, .f32⟩ : BufTy).Contents (Elt F)),
    binary main_v18 main_v24 main_v25 (subf : (⟨S100000x64, .f32⟩ : BufTy).Contents (Elt F) → (⟨S100000x64, .f32⟩ : BufTy).Contents (Elt F) → (⟨S100000x64, .f32⟩ : BufTy).Contents (Elt F)),
    unary main_arg4 main_v26 (broadcastInDim S1x64 ![1] bcast_S64_S1x64_1 : (⟨S64, .f32⟩ : BufTy).Contents (Elt F) → (⟨S1x64, .f32⟩ : BufTy).Contents (Elt F)),
    unary main_v26 main_v27 (broadcastInDim S100000x64 ![0, 1] bcast_S1x64_S100000x64_0_1 : (⟨S1x64, .f32⟩ : BufTy).Contents (Elt F) → (⟨S100000x64, .f32⟩ : BufTy).Contents (Elt F)),
    binary main_v27 main_v25 main_v28 (mulf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x3727C5AC#32),
    unary main_cst_4 main_v29 (broadcastInDim S64 ![] bcast_S_S64 : (⟨S_, .f32⟩ : BufTy).Contents (Elt F) → (⟨S64, .f32⟩ : BufTy).Contents (Elt F)),
    binary main_v22 main_v29 main_v30 (addf : (⟨S64, .f32⟩ : BufTy).Contents (Elt F) → (⟨S64, .f32⟩ : BufTy).Contents (Elt F) → (⟨S64, .f32⟩ : BufTy).Contents (Elt F)),
    unary main_v30 main_v31 (Host.rsqrt : (⟨S64, .f32⟩ : BufTy).Contents (Elt F) → (⟨S64, .f32⟩ : BufTy).Contents (Elt F)),
    unary main_v31 main_v32 (broadcastInDim S1x64 ![1] bcast_S64_S1x64_1 : (⟨S64, .f32⟩ : BufTy).Contents (Elt F) → (⟨S1x64, .f32⟩ : BufTy).Contents (Elt F)),
    unary main_v32 main_v33 (broadcastInDim S100000x64 ![0, 1] bcast_S1x64_S100000x64_0_1 : (⟨S1x64, .f32⟩ : BufTy).Contents (Elt F) → (⟨S100000x64, .f32⟩ : BufTy).Contents (Elt F)),
    binary main_v28 main_v33 main_v34 (mulf : (⟨S100000x64, .f32⟩ : BufTy).Contents (Elt F) → (⟨S100000x64, .f32⟩ : BufTy).Contents (Elt F) → (⟨S100000x64, .f32⟩ : BufTy).Contents (Elt F)),
    unary main_arg5 main_v35 (broadcastInDim S1x64 ![1] bcast_S64_S1x64_1 : (⟨S64, .f32⟩ : BufTy).Contents (Elt F) → (⟨S1x64, .f32⟩ : BufTy).Contents (Elt F)),
    unary main_v35 main_v36 (broadcastInDim S100000x64 ![0, 1] bcast_S1x64_S100000x64_0_1 : (⟨S1x64, .f32⟩ : BufTy).Contents (Elt F) → (⟨S100000x64, .f32⟩ : BufTy).Contents (Elt F)),
    binary main_v34 main_v36 main_v37 (addf : (⟨S100000x64, .f32⟩ : BufTy).Contents (Elt F) → (⟨S100000x64, .f32⟩ : BufTy).Contents (Elt F) → (⟨S100000x64, .f32⟩ : BufTy).Contents (Elt F)) ]

/-- The ReLU's operations over the second call's buffers. -/
abbrev opsR : List (HloOp τ sig (Elt F)) :=
  [ TRef.nullary main_call1.cst (constant S_ .f32 0x00000000#32),
    TRef.unary main_call1.cst main_call1.v0 (broadcastInDim S100000x64 ![] bcast_S_S100000x64),
    TRef.binary (.of main_v37) main_call1.v0 main_call1.v1 maximumf ]

/-- @main's operations in order, the calls unfolded. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_arg0 main_v13 main_v14 (addf : (⟨S100000x64, .f32⟩ : BufTy).Contents (Elt F) → (⟨S100000x64, .f32⟩ : BufTy).Contents (Elt F) → (⟨S100000x64, .f32⟩ : BufTy).Contents (Elt F)),
    binary main_v14 main_arg2 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v16 (broadcastInDim S1x64 ![1] bcast_S64_S1x64_1 : (⟨S64, .f32⟩ : BufTy).Contents (Elt F) → (⟨S1x64, .f32⟩ : BufTy).Contents (Elt F)),
    unary main_v16 main_v17 (broadcastInDim S100000x64 ![0, 1] bcast_S1x64_S100000x64_0_1 : (⟨S1x64, .f32⟩ : BufTy).Contents (Elt F) → (⟨S100000x64, .f32⟩ : BufTy).Contents (Elt F)),
    binary main_v15 main_v17 main_v18 (addf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x00000000#32),
    binary main_v18 main_cst_1 main_v19 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_2 (constant S_ .f32 0x47C35000#32),
    unary main_cst_2 main_v20 (broadcastInDim S64 ![] bcast_S_S64 : (⟨S_, .f32⟩ : BufTy).Contents (Elt F) → (⟨S64, .f32⟩ : BufTy).Contents (Elt F)),
    binary main_v19 main_v20 main_v21 (Host.divf : (⟨S64, .f32⟩ : BufTy).Contents (Elt F) → (⟨S64, .f32⟩ : BufTy).Contents (Elt F) → (⟨S64, .f32⟩ : BufTy).Contents (Elt F)),
    nullary main_c_3 (constantI S_ 32 0#32),
    TRef.nullary main_call0.cst (constant S_ .f32 0x00000000#32),
    TRef.binary (.of main_v18) main_call0.cst main_call0.v0 (fun x v => Host.reduceAdd x v reducesTo_S100000x64_S64_d0 h_S_),
    TRef.unary main_call0.v0 main_call0.v1 (broadcastInDim S1x64 ![1] bcast_S64_S1x64_1),
    TRef.nullary main_call0.cst_0 (constant S_ .f32 0x47C35000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S100000x64 ![0, 1] bcast_S1x64_S100000x64_0_1),
    TRef.binary (.of main_v18) main_call0.v4 main_call0.v5 subf,
    TRef.binary main_call0.v5 main_call0.v5 main_call0.v6 mulf,
    TRef.unary (.of main_c_3) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v21 main_v23 (broadcastInDim S1x64 ![1] bcast_S64_S1x64_1 : (⟨S64, .f32⟩ : BufTy).Contents (Elt F) → (⟨S1x64, .f32⟩ : BufTy).Contents (Elt F)),
    unary main_v23 main_v24 (broadcastInDim S100000x64 ![0, 1] bcast_S1x64_S100000x64_0_1 : (⟨S1x64, .f32⟩ : BufTy).Contents (Elt F) → (⟨S100000x64, .f32⟩ : BufTy).Contents (Elt F)),
    binary main_v18 main_v24 main_v25 (subf : (⟨S100000x64, .f32⟩ : BufTy).Contents (Elt F) → (⟨S100000x64, .f32⟩ : BufTy).Contents (Elt F) → (⟨S100000x64, .f32⟩ : BufTy).Contents (Elt F)),
    unary main_arg4 main_v26 (broadcastInDim S1x64 ![1] bcast_S64_S1x64_1 : (⟨S64, .f32⟩ : BufTy).Contents (Elt F) → (⟨S1x64, .f32⟩ : BufTy).Contents (Elt F)),
    unary main_v26 main_v27 (broadcastInDim S100000x64 ![0, 1] bcast_S1x64_S100000x64_0_1 : (⟨S1x64, .f32⟩ : BufTy).Contents (Elt F) → (⟨S100000x64, .f32⟩ : BufTy).Contents (Elt F)),
    binary main_v27 main_v25 main_v28 (mulf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x3727C5AC#32),
    unary main_cst_4 main_v29 (broadcastInDim S64 ![] bcast_S_S64 : (⟨S_, .f32⟩ : BufTy).Contents (Elt F) → (⟨S64, .f32⟩ : BufTy).Contents (Elt F)),
    binary main_v22 main_v29 main_v30 (addf : (⟨S64, .f32⟩ : BufTy).Contents (Elt F) → (⟨S64, .f32⟩ : BufTy).Contents (Elt F) → (⟨S64, .f32⟩ : BufTy).Contents (Elt F)),
    unary main_v30 main_v31 (Host.rsqrt : (⟨S64, .f32⟩ : BufTy).Contents (Elt F) → (⟨S64, .f32⟩ : BufTy).Contents (Elt F)),
    unary main_v31 main_v32 (broadcastInDim S1x64 ![1] bcast_S64_S1x64_1 : (⟨S64, .f32⟩ : BufTy).Contents (Elt F) → (⟨S1x64, .f32⟩ : BufTy).Contents (Elt F)),
    unary main_v32 main_v33 (broadcastInDim S100000x64 ![0, 1] bcast_S1x64_S100000x64_0_1 : (⟨S1x64, .f32⟩ : BufTy).Contents (Elt F) → (⟨S100000x64, .f32⟩ : BufTy).Contents (Elt F)),
    binary main_v28 main_v33 main_v34 (mulf : (⟨S100000x64, .f32⟩ : BufTy).Contents (Elt F) → (⟨S100000x64, .f32⟩ : BufTy).Contents (Elt F) → (⟨S100000x64, .f32⟩ : BufTy).Contents (Elt F)),
    unary main_arg5 main_v35 (broadcastInDim S1x64 ![1] bcast_S64_S1x64_1 : (⟨S64, .f32⟩ : BufTy).Contents (Elt F) → (⟨S1x64, .f32⟩ : BufTy).Contents (Elt F)),
    unary main_v35 main_v36 (broadcastInDim S100000x64 ![0, 1] bcast_S1x64_S100000x64_0_1 : (⟨S1x64, .f32⟩ : BufTy).Contents (Elt F) → (⟨S100000x64, .f32⟩ : BufTy).Contents (Elt F)),
    binary main_v34 main_v36 main_v37 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v37) main_call1.v0 main_call1.v1 maximumf ]

theorem ops_split : (ops : List (HloOp τ sig (Elt F))) = opsA ++ (opsV ++ (opsB ++ opsR)) := rfl

/-- The variance's body, its nested call unfolded, is its straight line once sequencing is reassociated. -/
theorem var_eq : (fn_var.body (F := F) (.of main_v18) (.of main_c_3) main_call0)
    = seq (Λ := Pipeline.Sig Λ₀ (Fin 0) fun p => (pcfgs (F := F) p).Adm) (nD := nD) opsV := by
  simp only [fn_var.body, fn_where.body, seq, bind_assoc, pure_bind]

/-- The ReLU's body followed by @main's return is its straight line. -/
theorem relu_eq : (fn_relu.body (F := F) (.of main_v37) main_call1 >>= fun _ => pure ⟨⟩)
    = seq (Λ := Pipeline.Sig Λ₀ (Fin 0) fun p => (pcfgs (F := F) p).Adm) (nD := nD) opsR := by
  simp only [fn_relu.body, seq, bind_assoc, pure_bind]

/-- @main is its own two runs of operations around the two calls. -/
theorem main_parts (c : Dev nD) : main (F := F) c
    = (seq opsA >>= fun _ => fn_var.body (.of main_v18) (.of main_c_3) main_call0 >>= fun _ => seq opsB >>= fun _ =>
        fn_relu.body (.of main_v37) main_call1 >>= fun _ => pure ⟨⟩) := rfl

/-- @main is the straight line. -/
theorem main_eq (c : Dev nD) : main (F := F) c = seq ops := by
  rw [ops_split, seq_append, seq_append, seq_append, main_parts, var_eq, relu_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    nullary_bufs_sub .., unary_bufs_sub .., binary_bufs_sub ..⟩

/-- At the compiled mesh, from any memory with zero counters: every weakly fair execution of @main terminates, and
    every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduceAdd Host.gather Host.scatterAdd Host.divf Host.rsqrt in
set_option maxRecDepth 8192 in
set_option maxHeartbeats 800000 in
/-- The fold at the result buffer is the layer's term: each operation's result at its own buffer is its function of
    its operands' contents, and the typed references' casts are the identity at these literal references. The
    reductions, the gather and the scatter-add stay folded meanwhile (the equation never looks inside them). -/
theorem out_eq (V : Valuation τ sig (Elt F)) :
    after ops V (main_v38 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

/-- On every device, for any float values, from any memory with zero counters: every weakly fair execution of @main
    terminates with the result at the layer's term of the arguments and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v38).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_main m ρ)

end Cert.ReferenceIdeal.RefValue

end
-- ==== Proof.RefValue.lean ====
/-
  The reference side of the certificate's algebraic claim: every weakly fair execution of the reference's
  @main ends with its result buffer at the shared specification's layer (Proof/Spec.lean) of the argument
  arrays, taken on the neighbour sums the reference builds, and with the arguments unchanged.

  The run (Proof/RefRun.lean) leaves the result at the program's own term of the arguments
  (Proof/RefTerm.lean). Here that term is read one element at a time at the ideal values: the matrix
  product as the sum over the contracted coordinate, each column reduction from the zero pattern as the
  sum over the nodes, the keepdims broadcasts as reads of the channel's entry, the host quotient, the
  reciprocal square root and the maximum as the extended reals' own. In the variance the divisor n − ddof is
  the number of nodes itself (the integer 0 converts to 0), it is positive, and so the select that guards
  the divisor takes the quotient and never the not-a-number constant.
-/
import proofs.«174260_j43593918054564_2_alg».proof.Proof.RefRun
import proofs.«174260_j43593918054564_2_alg».proof.Proof.Spec
import Idealize.ShloMosaic.Lib.StackMember
import Idealize.ShloMosaic.Lib.IdealHost
import Idealize.ShloMosaic.Lib.KernelVsHost

noncomputable section

namespace Cert.ReferenceIdeal.RefValue

open Cert.ReferenceIdeal Cert.ReferenceIdeal.Gen Idealize.ShloMosaic Idealize.ShloMosaic.ValueIdx
open Idealize.ShloMosaic.TcCoe Idealize.SL.Sem
open scoped BigOperators

/-- The pattern 0x47C35000 is the real 100000. -/
theorem ofBits_nodes : Ideal.ofBits .f32 0x47C35000#32 = ((100000 : ℝ) : EReal) := by
  simp [Ideal.ofBits, Ideal.ieee, -EReal.coe_mul]; norm_num

theorem nodes_pos : (0 : EReal) < Cert.NormSpec.nodes := by
  unfold Cert.NormSpec.nodes
  rw [ofBits_nodes]
  exact_mod_cast (by norm_num : (0 : ℝ) < 100000)

section Generic
variable {F : FTy → Type} [FloatOps F]

/-- A channel vector kept as a 1 × 64 row, read at (0, j), is the vector at j. -/
theorem keep_apply {α : Type} (v : S64.Idx → α) (j : Fin 64) :
    broadcastInDim S1x64 ![1] bcast_S64_S1x64_1 v (ix2 (0 : Fin 1) j) = v (ix1 j) := by
  refine broadcastInDim_apply ![1] bcast_S64_S1x64_1 v (ix2 (0 : Fin 1) j) (ix1 j) ?_
  intro a
  fin_cases a
  rfl

/-- A channel vector laid along every row, read at (r, j), is the vector at j. -/
theorem rows_apply (v : FVec F S64 .f32) (r : Fin 100000) (j : Fin 64) : rows v (ix2 r j) = v (ix1 j) := by
  unfold rows
  rw [broadcastInDim_oneRow_apply]
  exact keep_apply v j

end Generic

/-- The column sum from the zero pattern, read at channel j, is the sum over the nodes. -/
theorem colSum_apply (h : FVec Ideal S100000x64 .f32) (j : Fin 64) :
    Host.reduceAdd h (constant (F := Ideal) S_ .f32 0x00000000#32) reducesTo_S100000x64_S64_d0 h_S_ (ix1 j)
      = ∑ r : Fin 100000, h (ix2 r j) := by
  have hRed : S100000x64.Reduces [0] S64 := by decide
  rw [hostReduceAdd_apply, Ideal.hostReduceAdd_single reducesTo_S100000x64_S64_d0 hRed, constant_apply,
    Ideal.ofBits_zero_f32, zero_add]
  refine Finset.sum_congr rfl fun r _ => congrArg h ?_
  funext a
  refine Fin.ext ?_
  match a with
  | ⟨0, _⟩ => rfl
  | ⟨1, _⟩ => rfl

/-- The linear layer's term read at (r, j). -/
theorem linT_apply (x a : FVec Ideal S100000x64 .f32) (W : FVec Ideal S64x64 .f32) (b : FVec Ideal S64 .f32)
    (r : Fin 100000) (j : Fin 64) :
    linT x a W b (ix2 r j) = Cert.NormSpec.lin x a W b r j := by
  have hd : dot_S100000x64_S64x64_S100000x64_1_0_0_1_n_n = DotDims.plain 100000 64 64 := rfl
  unfold linT Cert.NormSpec.lin
  rw [addf_apply, rows_apply, hd, StackMember.dotGeneral_plain_apply]
  rfl

theorem linT_eq (x a : FVec Ideal S100000x64 .f32) (W : FVec Ideal S64x64 .f32) (b : FVec Ideal S64 .f32) :
    (fun r j => linT x a W b (ix2 r j)) = Cert.NormSpec.lin x a W b :=
  funext fun r => funext fun j => linT_apply x a W b r j

/-- The channel means' term read at channel j. -/
theorem meanT_apply (h : FVec Ideal S100000x64 .f32) (j : Fin 64) :
    meanT h (ix1 j) = Cert.NormSpec.mean (fun r j => h (ix2 r j)) j := by
  unfold meanT Cert.NormSpec.mean Cert.NormSpec.nodes
  rw [hostDivf_apply, colSum_apply, broadcastInDim_scalar_apply, constant_apply]

/-- The variance's divisor n − 0 is n. -/
theorem varDen_apply (i : S_.Idx) : varDen (F := Ideal) i = Cert.NormSpec.nodes := by
  unfold varDen Cert.NormSpec.nodes
  rw [subf_apply, constant_apply, sitofp_apply]
  show Ideal.ofBits .f32 0x47C35000#32 - ((((0#32 : BitVec 32).toInt : ℤ) : ℝ) : EReal) = _
  simp

/-- The deviations' term read at (r, j). -/
theorem devT_apply (h : FVec Ideal S100000x64 .f32) (r : Fin 100000) (j : Fin 64) :
    devT h (ix2 r j) = h (ix2 r j) - Cert.NormSpec.mean (fun r j => h (ix2 r j)) j := by
  unfold devT Cert.NormSpec.mean Cert.NormSpec.nodes
  rw [subf_apply, broadcastInDim_oneRow_apply, hostDivf_apply, keep_apply, colSum_apply, broadcastInDim_scalar_apply,
    constant_apply]

/-- The channel variances' term read at channel j: the divisor is positive, so the select takes the quotient. -/
theorem varT_apply (h : FVec Ideal S100000x64 .f32) (j : Fin 64) :
    varT h (ix1 j) = Cert.NormSpec.var (fun r j => h (ix2 r j)) j := by
  have hbit : FloatOps.cmpf (F := Ideal) .ogt (Cert.NormSpec.nodes : Ideal .f32) (Ideal.ofBits .f32 0x00000000#32) = 1#1 := by
    rw [Ideal.cmpf_def, Ideal.ofBits_zero_f32]
    simp [Ideal.cmp, nodes_pos]
  unfold varT
  rw [select_apply, broadcastInDim_scalar_apply, cmpf_apply, varDen_apply, constant_apply, hbit, select_one,
    hostDivf_apply, colSum_apply, broadcastInDim_scalar_apply, varDen_apply]
  unfold Cert.NormSpec.var
  refine congrArg (Ideal.div · Cert.NormSpec.nodes) (Finset.sum_congr rfl fun r _ => ?_)
  rw [mulf_apply, devT_apply]

/-- The result's term read at (r, j). -/
theorem outT_apply (h : FVec Ideal S100000x64 .f32) (g be : FVec Ideal S64 .f32) (r : Fin 100000) (j : Fin 64) :
    outT h g be (ix2 r j)
      = Cert.NormSpec.normWith (Cert.NormSpec.var (fun r j => h (ix2 r j))) (fun r j => h (ix2 r j)) g be r j := by
  unfold outT Cert.NormSpec.normWith Cert.NormSpec.eps
  rw [maximumf_apply, addf_apply, mulf_apply, mulf_apply, rows_apply, rows_apply, rows_apply, subf_apply, rows_apply,
    meanT_apply, broadcastInDim_scalar_apply, constant_apply, Ideal.ofBits_zero_f32]
  show max (_ * _ * FloatOps.hostUnary (F := Ideal) .rsqrt (addf (varT h) _ (ix1 j)) + _) 0 = _
  rw [Ideal.hostUnary_rsqrt_def, addf_apply, varT_apply, broadcastInDim_scalar_apply, constant_apply]

/-- The reference's result is the specification's layer on the neighbour sums the reference builds. -/
theorem refOut_eq (x : FVec Ideal S100000x64 .f32) (e : IVec S2x1600000 32) (W : FVec Ideal S64x64 .f32)
    (b g be : FVec Ideal S64 .f32) :
    refOut x e W b g be = Cert.NormSpec.out x (agg x e) W b g be := by
  funext i
  obtain ⟨r, j, rfl⟩ : ∃ (r : Fin 100000) (j : Fin 64), i = ix2 r j := ⟨i 0, i 1, eq_ix2 i⟩
  unfold refOut Cert.NormSpec.out
  rw [outT_apply, linT_eq]

/-- On every device, at the ideal values, from any memory with zero counters: every weakly fair execution of the
    reference's @main terminates with the result buffer at the specification's layer of the arguments — on the
    neighbour sums `agg` of the first two — and the six arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38)
        = Cert.NormSpec.out (m ((c.tc : Thread nD τ).loc main_arg0))
            (agg (F := Ideal) (m ((c.tc : Thread nD τ).loc main_arg0)) (m ((c.tc : Thread nD τ).loc main_arg1)))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono
    (fun _ h c => ⟨(h c).1.trans (refOut_eq _ _ _ _ _ _), (h c).2⟩)
    (run_term (F := Ideal) m ρ)

end Cert.ReferenceIdeal.RefValue

end
-- ==== Proof.Algebra.lean ====
/-
  The algebra of the normalisation, over the extended reals.

  On arrays all of whose elements are real numbers the two spellings of a channel's variance agree:
    (1/n) ∑ (h − μ)² = (1/n) ∑ h² − μ²     with μ = (1/n) ∑ h,
  and the left side is a mean of squares, hence nonnegative, so clamping the right side below at zero
  changes nothing. The identity is proved over the reals for an arbitrary finite index type whose
  cardinality is the divisor, transported to the extended reals by pushing the coercion through the
  sums, and only then read at the 100000 nodes. The linear layer of real arrays is real, which is
  what makes the identity applicable to it.
-/
import proofs.«174260_j43593918054564_2_alg».proof.Proof.Spec

noncomputable section

namespace Cert.NormSpec

open Idealize.ShloMosaic Idealize.ShloMosaic.ValueIdx

/-- The pattern `0x47C35000` denotes the real number `100000`. -/
theorem nodes_eq : nodes = ((100000 : ℝ) : EReal) := by
  unfold nodes
  simp [Ideal.ofBits, Ideal.ieee, -EReal.coe_mul]; norm_num

/-! ### Real elements of the extended reals -/

/-- An extended real that is a real number. -/
def IsReal (x : EReal) : Prop := ∃ y : ℝ, x = (y : EReal)

theorem isReal_coe (y : ℝ) : IsReal (y : EReal) := ⟨y, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is a real number. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The variance identity -/

/-- Over the reals, with `N` the number of terms: the mean of the squared deviations from the mean is
    the mean of the squares minus the squared mean. -/
theorem real_var_identity {ι : Type*} [Fintype ι] (y : ι → ℝ) (N : ℝ)
    (hN : (Fintype.card ι : ℝ) = N) (hN0 : N ≠ 0) :
    (∑ r, (y r - (∑ r, y r) * (1 / N)) * (y r - (∑ r, y r) * (1 / N))) * (1 / N)
      = (∑ r, y r * y r) * (1 / N) - ((∑ r, y r) * (1 / N)) * ((∑ r, y r) * (1 / N)) := by
  generalize hS : (∑ r, y r) = S
  have h1 : ∑ r, (y r - S * (1 / N)) * (y r - S * (1 / N))
      = (∑ r, y r * y r) - 2 * (S * (1 / N)) * S + N * ((S * (1 / N)) * (S * (1 / N))) := by
    have e : ∀ r, (y r - S * (1 / N)) * (y r - S * (1 / N))
        = y r * y r - 2 * (S * (1 / N)) * y r + (S * (1 / N)) * (S * (1 / N)) := fun r => by ring
    simp only [e]
    rw [Finset.sum_add_distrib, Finset.sum_sub_distrib, ← Finset.mul_sum, hS, Finset.sum_const,
      Finset.card_univ, nsmul_eq_mul, hN]
  rw [h1]
  field_simp
  ring

/-- The same over the extended reals, on real elements, with the right side clamped below at zero:
    the clamp is the identity because the left side is a mean of squares. -/
theorem varRaw_eq_var_gen {ι : Type*} [Fintype ι] (h : ι → EReal) (hfin : ∀ r, IsReal (h r)) (N : ℝ)
    (hN : (Fintype.card ι : ℝ) = N) (hN0 : N ≠ 0) :
    max (Ideal.div (∑ r, h r * h r) (N : EReal)
          - Ideal.div (∑ r, h r) (N : EReal) * Ideal.div (∑ r, h r) (N : EReal)) 0
      = Ideal.div (∑ r, (h r - Ideal.div (∑ r, h r) (N : EReal)) * (h r - Ideal.div (∑ r, h r) (N : EReal)))
          (N : EReal) := by
  choose y hy using hfin
  have hh : h = fun r => (y r : EReal) := funext hy
  subst hh
  have hNpos : 0 < N := by
    rcases lt_or_gt_of_ne hN0 with hlt | hgt
    · exfalso; rw [← hN] at hlt; exact absurd hlt (not_lt.mpr (Nat.cast_nonneg _))
    · exact hgt
  simp only [Ideal.div_coe hN0]
  simp only [← EReal.coe_mul, ← coe_sum, ← EReal.coe_sub]
  rw [← real_var_identity y N hN hN0]
  apply max_eq_left
  rw [EReal.coe_nonneg]
  apply mul_nonneg
  · exact Finset.sum_nonneg fun r _ => mul_self_nonneg _
  · positivity

/-- On real arrays the clamped raw variance is the variance. -/
theorem varRaw_eq_var (h : Fin 100000 → Fin 64 → EReal) (hfin : ∀ r j, ∃ y : ℝ, h r j = (y : EReal))
    (j : Fin 64) : varRaw h j = var h j := by
  unfold varRaw var mean
  rw [nodes_eq]
  exact varRaw_eq_var_gen (fun r => h r j) (fun r => hfin r j) 100000 (by simp) (by norm_num)

/-! ### The linear layer of real arrays is real -/

theorem lin_finite (x a : SX.Idx → EReal) (W : SW.Idx → EReal) (b : SV.Idx → EReal)
    (hx : ∀ i, ∃ y : ℝ, x i = (y : EReal)) (ha : ∀ i, ∃ y : ℝ, a i = (y : EReal))
    (hW : ∀ i, ∃ y : ℝ, W i = (y : EReal)) (hb : ∀ i, ∃ y : ℝ, b i = (y : EReal)) :
    ∀ r j, ∃ y : ℝ, lin x a W b r j = (y : EReal) := by
  intro r j
  unfold lin
  exact IsReal.add (isReal_sum _ _ fun k _ => IsReal.mul (IsReal.add (hx _) (ha _)) (hW _)) (hb _)

/-- With real arguments, the layer computed with the clamped raw variance is the layer. -/
theorem outRaw_eq_out (x a : SX.Idx → EReal) (W : SW.Idx → EReal) (b g be : SV.Idx → EReal)
    (hx : ∀ i, ∃ y : ℝ, x i = (y : EReal)) (ha : ∀ i, ∃ y : ℝ, a i = (y : EReal))
    (hW : ∀ i, ∃ y : ℝ, W i = (y : EReal)) (hb : ∀ i, ∃ y : ℝ, b i = (y : EReal)) :
    outRaw x a W b g be = out x a W b g be := by
  have hv : varRaw (lin x a W b) = var (lin x a W b) :=
    funext fun j => varRaw_eq_var _ (lin_finite x a W b hx ha hW hb) j
  funext i
  unfold outRaw out
  rw [hv]

end Cert.NormSpec

end
-- ==== Proof.Finite.lean ====
/-
  Finiteness: which arrays of the two programs hold real numbers only.

  The precondition says of each float argument `v` that `all (|v| < +∞)`; over the extended reals
  `|x| = max x (−x)` is below `⊤` exactly when `x` is neither `⊤` nor `⊥`, that is, a real number. A gather
  returns elements of its operand, and an accumulating scatter returns each operand element plus a finite
  sum of update elements, so both keep arrays of real numbers real: the neighbour sums of a real array,
  scattered into zeros, are real.
-/
import proofs.«174260_j43593918054564_2_alg».proof.Proof.Algebra
import proofs.«174260_j43593918054564_2_alg».proof.Pre_finite_inputs
import proofs.«174260_j43593918054564_2_alg».proof.Proof.Gen.Pre_finite_inputs
import Idealize.ShloMosaic.Lib.ReduceAll

noncomputable section

namespace Cert.NormSpec

open Idealize.ShloMosaic Idealize.ShloMosaic.ValueIdx

/-! ### Gather and accumulating scatter -/

/-- Every element of a gather is an element of its operand, so a gather of real numbers is real. -/
theorem gather_finite {s si t : Shape} {w : Nat} (gd : GatherDims s si t) (x : FVec Ideal s .f32) (i1 : IVec si w)
    (hx : ∀ i, ∃ y : ℝ, x i = (y : EReal)) : ∀ j, ∃ y : ℝ, Host.gather gd x i1 j = (y : EReal) :=
  fun _ => hx _

/-- An accumulating scatter of real updates into a real operand is real: each element is the operand's
    plus a finite sum of updates. -/
theorem scatterAdd_finite {s si su : Shape} {w : Nat} (sd : ScatterDims s si su) (z : FVec Ideal s .f32)
    (i2 : IVec si w) (u : FVec Ideal su .f32) (hz : ∀ i, ∃ y : ℝ, z i = (y : EReal))
    (hu : ∀ j, ∃ y : ℝ, u j = (y : EReal)) :
    ∀ i, ∃ y : ℝ, Host.scatterAdd (F := Ideal) sd z i2 u i = (y : EReal) := by
  intro i
  show IsReal (Ideal.hostScatterAdd sd z i2 u i)
  unfold Ideal.hostScatterAdd
  exact IsReal.add (hz i) (isReal_sum _ _ fun j _ => hu j)

/-- The neighbour sums of a real array — its gather at one index vector scattered, accumulating, into zeros
    at another — are real, whatever the dimension numbers and the index vectors. -/
theorem neighbourSum_finite {s si su : Shape} {w w' : Nat} (gd : GatherDims s si su) (sd : ScatterDims s si su)
    (i1 : IVec si w) (i2 : IVec si w') (z x : FVec Ideal s .f32) (hz : ∀ i, z i = 0)
    (hx : ∀ i, ∃ y : ℝ, x i = (y : EReal)) :
    ∀ i, ∃ y : ℝ, Host.scatterAdd (F := Ideal) sd z i2 (Host.gather gd x i1) i = (y : EReal) :=
  scatterAdd_finite sd z i2 _ (fun i => ⟨0, by rw [hz i]; rfl⟩) (gather_finite gd x i1 hx)

/-! ### The precondition decoded -/

/-- The pattern `0x7F800000` denotes `+∞`. -/
theorem ofBits_inf : Ideal.ofBits .f32 0x7F800000#32 = ⊤ := by
  simp [Ideal.ofBits, Ideal.ieee]

/-- An extended real whose absolute value is below `+∞` is a real number. -/
theorem isReal_of_abs_lt_top (x : EReal) (h : max x (-x) < ⊤) : IsReal x := by
  induction x using EReal.rec with
  | bot => simp at h
  | coe r => exact ⟨r, rfl⟩
  | top => simp at h

/-- A one-bit word made from a Boolean is one exactly when the Boolean is true. -/
theorem ofBool_eq_one (b : Bool) : BitVec.ofBool b = 1#1 ↔ b = true := by cases b <;> decide

/-- One `all (|v| < +∞)` of the precondition, read back: every element of `v` is a real number. -/
theorem finite_of_all {s : Shape} {axes : List (Fin s.rank)} {S0 : Shape} [Subsingleton S0.Idx]
    (dims : Fin S0.rank → Fin s.rank) (hb : S0.BroadcastsInDim s dims) (hr : s.ReducesTo axes S0) (hu : 0 < S0.numel)
    (v : FVec Ideal s .f32) (j : S0.Idx)
    (e : Host.reduce IntOp.andi (cmpf .olt (Host.absf v) (broadcastInDim s dims hb (constant (F := Ideal) S0 .f32 0x7F800000#32)))
          (constantI S0 1 1#1) hr hu j = 1#1) :
    ∀ i, ∃ y : ℝ, v i = (y : EReal) := by
  intro i
  have h := Host.reduce_andi_all _ _ hr hu j e i
  have h' : Ideal.cmp .olt (max (v i) (-(v i))) (Ideal.ofBits .f32 0x7F800000#32) = 1#1 := h
  rw [ofBits_inf] at h'
  apply isReal_of_abs_lt_top
  unfold Ideal.cmp at h'
  simpa [ofBool_eq_one] using h'

instance : Subsingleton Cert.Pre_finite_inputs.S_.Idx := ⟨fun _ _ => funext fun d => d.elim0⟩

open Cert.Pre_finite_inputs in
/-- The precondition `finite_inputs`, all ones, says that the five float arguments hold real numbers only. -/
theorem finite_of_pre (x : FVec Ideal S100000x64 .f32) (e : IVec S2x1600000 32) (W : FVec Ideal S64x64 .f32)
    (b g be : FVec Ideal S64 .f32)
    (h : Cert.Pre_finite_inputs.fn (F := Ideal) x e W b g be = (fun _ => 1#1)) :
    (∀ i, ∃ y : ℝ, x i = (y : EReal)) ∧ (∀ i, ∃ y : ℝ, W i = (y : EReal)) ∧ (∀ i, ∃ y : ℝ, b i = (y : EReal))
      ∧ (∀ i, ∃ y : ℝ, g i = (y : EReal)) ∧ (∀ i, ∃ y : ℝ, be i = (y : EReal)) := by
  have h0 := congrFun h ix0
  dsimp only [Cert.Pre_finite_inputs.fn, Cert.Pre_finite_inputs.fn_part1, andi] at h0
  simp only [IntOp.andi_eq_one] at h0
  obtain ⟨⟨⟨⟨h1, h2⟩, h3⟩, h4⟩, h5⟩ := h0
  exact ⟨finite_of_all _ _ _ _ x _ h1, finite_of_all _ _ _ _ W _ h2, finite_of_all _ _ _ _ b _ h3,
    finite_of_all _ _ _ _ g _ h4, finite_of_all _ _ _ _ be _ h5⟩

end Cert.NormSpec

end
-- ==== Proof.lean ====
/-
  The certificate of a graph-isomorphism layer with batch normalisation and ReLU. The kernel packs two
  nodes into one 128-lane row, multiplies by the block-diagonal copy of the weights, accumulates the
  per-lane sums and sums of squares over ten row blocks, folds the two lanes of each channel into the
  batch statistics (variance as the mean of squares minus the squared mean, clamped at zero), and
  normalises in a second pass; the reference computes the plain layer with the variance as the mean of
  squared deviations. Over the extended reals, from finite inputs, both end at the same array: the
  neighbour sums are the same gather and scatter-add on both sides and are finite, so the linear layer
  is finite, on which the two variance formulas agree; everything else is re-indexing of sums and
  associativity of products.
-/
import proofs.«174260_j43593918054564_2_alg».proof.Defs
import proofs.«174260_j43593918054564_2_alg».proof.Proof.Gen.Kernel
import proofs.«174260_j43593918054564_2_alg».proof.Proof.Gen.Kernel.Skeleton
import proofs.«174260_j43593918054564_2_alg».proof.Proof.Gen.Kernel.Launch
import proofs.«174260_j43593918054564_2_alg».proof.Proof.Gen.Kernel.Points
import proofs.«174260_j43593918054564_2_alg».proof.Proof.Gen.Kernel.Frame
import proofs.«174260_j43593918054564_2_alg».proof.Proof.Gen.KernelIdeal
import proofs.«174260_j43593918054564_2_alg».proof.Proof.Gen.KernelIdeal.Skeleton
import proofs.«174260_j43593918054564_2_alg».proof.Proof.Gen.KernelIdeal.Launch
import proofs.«174260_j43593918054564_2_alg».proof.Proof.Gen.KernelIdeal.Points
import proofs.«174260_j43593918054564_2_alg».proof.Proof.Gen.KernelIdeal.Frame
import proofs.«174260_j43593918054564_2_alg».proof.Proof.Gen.ReferenceIdeal
import proofs.«174260_j43593918054564_2_alg».proof.Proof.Gen.Pre_finite_inputs
import proofs.«174260_j43593918054564_2_alg».proof.Proof.KernelValue
import proofs.«174260_j43593918054564_2_alg».proof.Proof.RefValue
import proofs.«174260_j43593918054564_2_alg».proof.Proof.Algebra
import proofs.«174260_j43593918054564_2_alg».proof.Proof.Finite
import Idealize.ShloMosaic.Adequacy
import Idealize.ShloMosaic.Init

noncomputable section

namespace Cert.Proof

open Idealize.ShloMosaic Idealize.SL.Sem

/-- The two programs build the neighbour sums by the same operations of the same arrays. -/
theorem agg_eq (x : FVec Ideal Cert.KernelIdeal.S100000x64 .f32) (e : IVec Cert.KernelIdeal.S2x1600000 32) :
    Cert.KernelIdeal.KVal.agg x e = Cert.ReferenceIdeal.RefValue.agg (F := Ideal) x e := by
  unfold Cert.KernelIdeal.KVal.agg Cert.ReferenceIdeal.RefValue.agg
  rfl

/-- The neighbour sums of finite features are finite. -/
theorem agg_finite (x : FVec Ideal Cert.KernelIdeal.S100000x64 .f32) (e : IVec Cert.KernelIdeal.S2x1600000 32)
    (hx : ∀ i, ∃ y : ℝ, x i = (y : EReal)) : ∀ i, ∃ y : ℝ, Cert.KernelIdeal.KVal.agg x e i = (y : EReal) := by
  unfold Cert.KernelIdeal.KVal.agg
  exact Cert.NormSpec.neighbourSum_finite _ _ _ _ _ _
    (fun i => (Cert.Repack.splat_constant_apply _ _ _ i).trans Ideal.ofBits_zero_f32) hx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- From memories agreeing on finite arguments both programs end at the layer's specification. -/
theorem algebraic : Cert.algebraic_KernelIdeal_ReferenceIdeal := by
  intro m ρ m' ρ' hpre hagree
  refine ⟨fun c => Cert.NormSpec.out (Cert.KernelIdeal.KVal.argX m c)
      (Cert.ReferenceIdeal.RefValue.agg (F := Ideal) (Cert.KernelIdeal.KVal.argX m c) (Cert.KernelIdeal.KVal.argE m c))
      (Cert.KernelIdeal.KVal.argW m c) (Cert.KernelIdeal.KVal.argB m c) (Cert.KernelIdeal.KVal.argG m c)
      (Cert.KernelIdeal.KVal.argBe m c), ?_, ?_⟩
  · refine (θ_run Cert.KernelIdeal.defs _ _).mono (fun r h c => ⟨(h c).1.trans ?_, (h c).2⟩)
      (Cert.KernelIdeal.KVal.run m ρ)
    obtain ⟨hx, hW, hb, -, -⟩ := Cert.NormSpec.finite_of_pre _ _ _ _ _ _ (hpre c)
    rw [Cert.NormSpec.outRaw_eq_out _ _ _ _ _ _ hx (agg_finite _ _ hx) hW hb, agg_eq]
  · refine (θ_run Cert.ReferenceIdeal.defs _ _).mono (fun r h c => ?_) (Cert.ReferenceIdeal.RefValue.run m' ρ')
    obtain ⟨e0, e1, e2, e3, e4, e5⟩ := hagree c
    refine ⟨(h c).1.trans ?_, (h c).2⟩
    rw [e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
